-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  main_v8
-- ==== Kernel.lean ====
abbrev S8x2048x512 : Shape := ⟨3, ![8, 2048, 512]⟩
abbrev S1x1024x512 : Shape := ⟨3, ![1, 1024, 512]⟩
abbrev S1x512x512 : Shape := ⟨3, ![1, 512, 512]⟩
abbrev S1x1024x1 : Shape := ⟨3, ![1, 1024, 1]⟩
abbrev S1x1024 : Shape := ⟨2, ![1, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v38 : BitVec 1 := Scalar.cmpi .eq arg2 c3_i32
  let v39 : BitVec 32 := Scalar.extui v38
  let c0_i32_30 : BitVec 32 := 0#32
  let v40 : BitVec 1 := Scalar.cmpi .ne v39 c0_i32_30
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1x1024x512 : S1x1024x512.ShapeCasts S1x1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  dot_S1x1024x512_S1x512x512_S1x1024x512_2_2_1_1_0_0_wf : DotDims.WF S1x1024x512 S1x512x512 S1x1024x512 [2] [2] [1] [1] [0] [0]
  dot_S1x1024x512_S1x512x512_S1x1024x512_2_1_1_2_0_0_wf : DotDims.WF S1x1024x512 S1x512x512 S1x1024x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x2048x512.size a
  hwx0_0 : ∀ i : grid0.Coords, EltTy.bits .f32 = 32 ∨ (Rect.block (s := S8x2048x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x512.size a
  hwx0_1 : ∀ i : grid0.Coords, EltTy.bits .f32 = 32 ∨ (Rect.block (s := S8x2048x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x512.size a
  hwx0_2 : ∀ i : grid0.Coords, EltTy.bits .f32 = 32 ∨ (Rect.block (s := S8x2048x512) S1x1024x512.size (cc0_transform_2 i) (hinb0_2 i)).WholeWords (EltTy.packing .f32)

variable [Facts₀]

def dot_S1x1024x512_S1x512x512_S1x1024x512_2_2_1_1_0_0 : DotDims S1x1024x512 S1x512x512 S1x1024x512 where
  lhsContracting := [2]
  rhsContracting := [2]
  lhsNonContracting := [1]
  rhsNonContracting := [1]
  lhsBatch := [0]
  rhsBatch := [0]
  wf := dot_S1x1024x512_S1x512x512_S1x1024x512_2_2_1_1_0_0_wf
def dot_S1x1024x512_S1x512x512_S1x1024x512_2_1_1_2_0_0 : DotDims S1x1024x512 S1x512x512 S1x1024x512 where
  lhsContracting := [2]
  rhsContracting := [1]
  lhsNonContracting := [1]
  rhsNonContracting := [2]
  lhsBatch := [0]
  rhsBatch := [0]
  wf := dot_S1x1024x512_S1x512x512_S1x1024x512_2_1_1_2_0_0_wf

abbrev win0_0 : Pipeline.Window sig grid0 :=
  Pipeline.Window.ofSpec (Memref.whole main_arg1) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x1x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_1_1_2_2_0_0_wf : DotDims.WF S8x2048x2048 S8x2048x512 S8x2048x512 [1] [1] [2] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_1_1_2_2_0_0 : DotDims S8x2048x2048 S8x2048x512 S8x2048x512 where
  lhsContracting := [1]
  rhsContracting := [1]
  lhsNonContracting := [2]
  rhsNonContracting := [2]
  lhsBatch := [0]
  rhsBatch := [0]
  wf := dot_S8x2048x2048_S8x2048x512_S8x2048x512_1_1_2_2_0_0_wf

class Facts : Prop extends Facts₀ where

variable [Facts]
-- ==== Proof.Spec.lean ====
/-
  The specification both programs are compared with: cross-attention of the decoder rows against the encoder rows,
  unscaled, with the encoder array serving as keys and as values.

  For a batch `b`, a decoder row `t` and an encoder row `e` the score is `s(b,t,e) = ∑_k enc(b,e,k) · dec(b,t,k)`;
  the result at `(b, t, d)` is the softmax-weighted average `(∑_e exp s(b,t,e) · enc(b,e,d)) / (∑_e exp s(b,t,e))`.

  `refAt` spells that average the way a textbook softmax does on the extended reals (subtract the row maximum, exponentiate,
  divide each weight by the weights' sum, then average); `Gat` is the closed form over the reals that the two spellings
  are both shown equal to when every input entry is a real number.
-/
import Idealize.ShloMosaic.PureOps.Ideal
import Idealize.ShloMosaic.Lib.ValueIdx

noncomputable section

namespace Cert.Spec

open Idealize.ShloMosaic Idealize.ShloMosaic.ValueIdx

/-- The shape of each argument and of the result: batch × rows × features. -/
abbrev SA : Shape := ⟨3, ![8, 2048, 512]⟩

/-- The score of decoder row `t` against encoder row `e` in batch `b`, on the extended reals. -/
def score (enc dec : SA.Idx → EReal) (b : Fin 8) (t e : Fin 2048) : EReal :=
  ∑ k : Fin 512, enc (ix3 b e k) * dec (ix3 b t k)

/-- The textbook softmax average on the extended reals: the maximum is taken from `⊥`, the weights are
    `exp (s - max)`, each is divided by their sum (taken from `0`), and the quotients weigh the encoder rows. -/
def refAt (enc dec : SA.Idx → EReal) (b : Fin 8) (t : Fin 2048) (d : Fin 512) : EReal :=
  let s : Fin 2048 → EReal := fun e => score enc dec b t e
  let M : EReal := max ⊥ (Finset.univ.fold max ⊥ s)
  let den : EReal := 0 + ∑ e : Fin 2048, Ideal.exp (s e - M)
  ∑ e : Fin 2048, Ideal.div (Ideal.exp (s e - M)) den * enc (ix3 b e d)

/-- The real score, for arrays of real numbers. -/
def scoreR (enc dec : SA.Idx → ℝ) (b : Fin 8) (t e : Fin 2048) : ℝ :=
  ∑ k : Fin 512, enc (ix3 b e k) * dec (ix3 b t k)

/-- The closed form over the reals. -/
def GatR (enc dec : SA.Idx → ℝ) (b : Fin 8) (t : Fin 2048) (d : Fin 512) : ℝ :=
  (∑ e : Fin 2048, Real.exp (scoreR enc dec b t e) * enc (ix3 b e d)) / (∑ e : Fin 2048, Real.exp (scoreR enc dec b t e))

/-- The result array of the specification, for arrays of real numbers. -/
def G (enc dec : SA.Idx → ℝ) : SA.Idx → EReal := fun i => ((GatR enc dec (i 0) (i 1) (i 2) : ℝ) : EReal)

theorem G_ix3 (enc dec : SA.Idx → ℝ) (b : Fin 8) (t : Fin 2048) (d : Fin 512) :
    G enc dec (ix3 b t d) = ((GatR enc dec b t d : ℝ) : EReal) := rfl

end Cert.Spec

end
-- ==== Proof.Finite.lean ====
/-
  The precondition "every entry of both argument arrays has absolute value below +∞" says that both arrays hold real numbers.

  The precondition is the conjunction of two reductions by `and`, over all three axes, of the elementwise comparison
  `|x| < +∞`, where `|x| = max x (-x)` on the extended reals and `+∞` is the single-precision pattern `0x7F800000`, which
  denotes `⊤`. A reduction by `and` that comes out true is true at every element; an extended real `x` with
  `max x (-x) < ⊤` is neither `⊤` nor `⊥` (for `⊥` the negation is `⊤`), hence the reading of a real number.
-/
import proofs.«134668_j29755533427577_2_alg».proof.Pre_finite_inputs
import Idealize.ShloMosaic.Lib.ReduceAll
import Idealize.ShloMosaic.Lib.ValueIdx
import Idealize.ShloMosaic.PureOps.Ideal

namespace Cert.Finite

open Idealize.ShloMosaic Idealize.ShloMosaic.ValueIdx

/-- An extended real whose absolute value is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern `0x7F800000` denotes `⊤`. -/
theorem inf_bits : Ideal.ofBits .f32 0x7F800000#32 = ⊤ := by
  simp [Ideal.ofBits, Ideal.ieee]

/-- A comparison `|x| < +∞` that came out true says `x` is a real number. -/
theorem real_of_cmp (x : EReal)
    (h : Ideal.cmp .olt (max x (-x)) (Ideal.ofBits .f32 0x7F800000#32) = 1#1) : ∃ r : ℝ, x = (r : EReal) := by
  rw [inf_bits] at h
  have h' : BitVec.ofBool (decide (max x (-x) < ⊤)) = 1#1 := h
  apply real_of_abs_lt_top
  by_contra hlt
  rw [decide_eq_false hlt] at h'
  exact absurd h' (by decide)

/-- Under the precondition both argument arrays are readings of arrays of real numbers. -/
theorem real_of_pre [Cert.Pre_finite_inputs.Facts] (x0 x1 : Cert.Pre_finite_inputs.S8x2048x512.Idx → EReal)
    (h : Cert.Pre_finite_inputs.fn (F := Ideal) x0 x1 = fun _ => 1#1) :
    (∃ r0 : Cert.Pre_finite_inputs.S8x2048x512.Idx → ℝ, x0 = fun i => ((r0 i : ℝ) : EReal))
      ∧ (∃ r1 : Cert.Pre_finite_inputs.S8x2048x512.Idx → ℝ, x1 = fun i => ((r1 i : ℝ) : EReal)) := by
  haveI : Subsingleton Cert.Pre_finite_inputs.S_.Idx := ⟨fun a b => funext fun d => d.elim0⟩
  have h0 := congrFun h ix0
  dsimp only [Cert.Pre_finite_inputs.fn] at h0
  obtain ⟨ha, hb⟩ := IntOp.andi_eq_one.1 h0
  have e0 : ∀ i, ∃ r : ℝ, x0 i = (r : EReal) := fun i =>
    real_of_cmp (x0 i) (Host.reduce_andi_all _ _ _ _ ix0 ha i)
  have e1 : ∀ i, ∃ r : ℝ, x1 i = (r : EReal) := fun i =>
    real_of_cmp (x1 i) (Host.reduce_andi_all _ _ _ _ ix0 hb i)
  refine ⟨⟨fun i => (x0 i).toReal, funext fun i => ?_⟩, ⟨fun i => (x1 i).toReal, funext fun i => ?_⟩⟩
  · obtain ⟨r, hr⟩ := e0 i
    show x0 i = (((x0 i).toReal : ℝ) : EReal)
    rw [hr, EReal.toReal_coe]
  · obtain ⟨r, hr⟩ := e1 i
    show x1 i = (((x1 i).toReal : ℝ) : EReal)
    rw [hr, EReal.toReal_coe]

end Cert.Finite
-- ==== Proof.Ref.lean ====
/-
  The reference program read at the ideal values.

  The reference computes, for a batch `b`, a decoder row `t` and a feature `d`: the scores
  `s(e) = ∑_k enc(b,e,k) · dec(b,t,k)` against every encoder row `e`; their maximum `M` (taken from `-∞`, and once more
  against `-∞`); the weights `exp (s(e) - M)`; their sum (taken from `0`); each weight divided by that sum; and the
  average `∑_e (weight(e) / sum) · enc(b,e,d)`. Each stage below reads one operation of the program at an index, and the last
  theorem says the result is the textbook softmax average of the specification.
-/
import proofs.«134668_j29755533427577_2_alg».proof.Proof.Gen.ReferenceIdeal.Read
import proofs.«134668_j29755533427577_2_alg».proof.Proof.Spec

noncomputable section

namespace Cert.RefSide

open Cert.ReferenceIdeal Cert.ReferenceIdeal.Gen Cert.ReferenceIdeal.Read Idealize.ShloMosaic Idealize.ShloMosaic.ValueIdx Cert.Spec

/-- An argument of the program: an array of extended reals over batch × rows × features. -/
abbrev Arr : Type := (⟨S8x2048x512, .f32⟩ : BufTy).Contents (Elt Ideal)

/-- The pattern of `-∞` denotes the least extended real. -/
theorem negInf : Ideal.ofBits .f32 0xFF800000#32 = ⊥ := by simp [Ideal.ofBits, Ideal.ieee]

/-- The first product at (b, e, t) is the score of decoder row `t` against encoder row `e`. -/
theorem v0_at (enc dec : Arr) (b : Fin 8) (e t : Fin 2048) :
    val_main_v0 (F := Ideal) enc dec (ix3 b e t) = score enc dec b t e := by
  rw [val_main_v0_apply]
  unfold score
  refine Finset.sum_congr rfl fun k _ => ?_
  have hl : lidx_main_v0 (ix3 b e t) k = ix3 b e k :=
    funext fun a => by match a with | ⟨0, _⟩ => rfl | ⟨1, _⟩ => rfl | ⟨2, _⟩ => rfl
  have hr : ridx_main_v0 (ix3 b e t) k = ix3 b t k :=
    funext fun a => by match a with | ⟨0, _⟩ => rfl | ⟨1, _⟩ => rfl | ⟨2, _⟩ => rfl
  rw [hl, hr]

/-- The reduced index (b, t) with the encoder row `e` put back on the dropped axis is (b, e, t). -/
theorem lift_at (h : S8x2048x2048.Reduces [1] S8x2048) (b : Fin 8) (t : Fin 2048) (e : Fin (S8x2048x2048.size 1)) :
    h.lift (ix2 b t) e = ix3 b (⟨e.val, e.isLt⟩ : Fin 2048) t := by
  funext c; apply Fin.ext
  match c with
  | ⟨0, _⟩ => rfl
  | ⟨1, _⟩ => rfl
  | ⟨2, _⟩ => rfl

/-- The maximum-reduce at (b, t) is the fold of `max` from `⊥` over the scores of row `t`. -/
theorem v1_at (enc dec : Arr) (b : Fin 8) (t : Fin 2048) :
    val_main_v1 (F := Ideal) enc dec (ix2 b t)
      = (Finset.univ : Finset (Fin 2048)).fold max ⊥ (fun e => score enc dec b t e) := by
  have h : S8x2048x2048.Reduces [1] S8x2048 := by decide
  unfold val_main_v1
  rw [Host.reduce_eq_fold_single FloatOps.maximumf _ _ reducesTo_S8x2048x2048_S8x2048_d1 h h_S_]
  have hf : (val_main_v0 (F := Ideal) enc dec ∘ h.lift (ix2 b t)) = fun e : Fin 2048 => score enc dec b t e :=
    funext fun e => by
      show val_main_v0 (F := Ideal) enc dec (h.lift (ix2 b t) e) = _
      rw [lift_at h b t e]; exact v0_at enc dec b e t
  have hi : val_main_cst (F := Ideal) (Shape.Idx.first h_S_) = (⊥ : EReal) := by
    rw [val_main_cst_apply]; exact negInf
  rw [hf, hi]
  rfl

/-- The maximum of row `t`'s scores: the fold from `⊥`, taken once more against `⊥` as the program does. -/
abbrev rowMax (enc dec : Arr) (b : Fin 8) (t : Fin 2048) : EReal :=
  max ⊥ ((Finset.univ : Finset (Fin 2048)).fold max ⊥ (fun e => score enc dec b t e))

/-- The sum of row `t`'s weights, taken from `0`. -/
abbrev rowDen (enc dec : Arr) (b : Fin 8) (t : Fin 2048) : EReal :=
  0 + ∑ e : Fin 2048, Ideal.exp (score enc dec b t e - rowMax enc dec b t)

/-- The maximum against the broadcast `-∞`, at (b, t). -/
theorem v3_at (enc dec : Arr) (b : Fin 8) (t : Fin 2048) :
    val_main_v3 (F := Ideal) enc dec (ix2 b t) = rowMax enc dec b t := by
  rw [val_main_v3_apply, val_main_v2_apply, val_main_cst_0_apply, v1_at, Ideal.maximumf_def, Ideal.ofBits_def, negInf]

/-- The row maximum broadcast back over the encoder rows, at (b, e, t). -/
theorem v5_at (enc dec : Arr) (b : Fin 8) (e t : Fin 2048) :
    val_main_v5 (F := Ideal) enc dec (ix3 b e t) = rowMax enc dec b t := by
  rw [val_main_v5_apply, val_main_v4_apply]
  have hi : idx_main_v4 (idx_main_v5 (ix3 b e t)) = ix2 b t :=
    funext fun a => by match a with | ⟨0, _⟩ => rfl | ⟨1, _⟩ => rfl
  rw [hi, v3_at]

/-- The weight of encoder row `e`, at (b, e, t). -/
theorem v7_at (enc dec : Arr) (b : Fin 8) (e t : Fin 2048) :
    val_main_v7 (F := Ideal) enc dec (ix3 b e t) = Ideal.exp (score enc dec b t e - rowMax enc dec b t) := by
  rw [val_main_v7_apply, val_main_v6_apply, v0_at, v5_at, Ideal.hostUnary_exp_def, Ideal.subf_def]

/-- The sum of the weights of row `t`, at (b, t). -/
theorem v8_at (enc dec : Arr) (b : Fin 8) (t : Fin 2048) :
    val_main_v8 (F := Ideal) enc dec (ix2 b t) = rowDen enc dec b t := by
  rw [val_main_v8_apply, val_main_cst_1_apply, Ideal.ofBits_def, Ideal.ofBits_zero_f32]
  refine congrArg (0 + ·) (Finset.sum_congr rfl fun k _ => ?_)
  have hi : idx_main_v8 (ix2 b t) k = ix3 b k t :=
    funext fun a => by match a with | ⟨0, _⟩ => rfl | ⟨1, _⟩ => rfl | ⟨2, _⟩ => rfl
  rw [hi, v7_at]

/-- The weights' sum broadcast back over the encoder rows, at (b, e, t). -/
theorem v10_at (enc dec : Arr) (b : Fin 8) (e t : Fin 2048) :
    val_main_v10 (F := Ideal) enc dec (ix3 b e t) = rowDen enc dec b t := by
  rw [val_main_v10_apply, val_main_v9_apply]
  have hi : idx_main_v9 (idx_main_v10 (ix3 b e t)) = ix2 b t :=
    funext fun a => by match a with | ⟨0, _⟩ => rfl | ⟨1, _⟩ => rfl
  rw [hi, v8_at]

/-- The normalised weight of encoder row `e`, at (b, e, t). -/
theorem v11_at (enc dec : Arr) (b : Fin 8) (e t : Fin 2048) :
    val_main_v11 (F := Ideal) enc dec (ix3 b e t)
      = Ideal.div (Ideal.exp (score enc dec b t e - rowMax enc dec b t)) (rowDen enc dec b t) := by
  rw [val_main_v11_apply, v7_at, v10_at, Ideal.hostDivf_def]

/-- The reference's result at (b, t, d) is the textbook softmax average of the specification. -/
theorem ref_apply (enc dec : Arr) (b : Fin 8) (t : Fin 2048) (d : Fin 512) :
    val_main_v12 (F := Ideal) enc dec (ix3 b t d) = refAt enc dec b t d := by
  rw [val_main_v12_apply]
  show _ = ∑ e : Fin 2048, Ideal.div (Ideal.exp (score enc dec b t e - rowMax enc dec b t)) (rowDen enc dec b t) * enc (ix3 b e d)
  refine Finset.sum_congr rfl fun k _ => ?_
  have hl : lidx_main_v12 (ix3 b t d) k = ix3 b k t :=
    funext fun a => by match a with | ⟨0, _⟩ => rfl | ⟨1, _⟩ => rfl | ⟨2, _⟩ => rfl
  have hr : ridx_main_v12 (ix3 b t d) k = ix3 b k d :=
    funext fun a => by match a with | ⟨0, _⟩ => rfl | ⟨1, _⟩ => rfl | ⟨2, _⟩ => rfl
  rw [hl, hr, v11_at]

/-- The same for the whole array: the reference's result is the specification's average at every index. -/
theorem ref_eq (enc dec : Arr) :
    val_main_v12 (F := Ideal) enc dec = fun i => refAt enc dec (i 0) (i 1) (i 2) := by
  funext i
  rw [eq_ix3 i]
  exact ref_apply enc dec (i 0) (i 1) (i 2)

end Cert.RefSide

end
-- ==== Proof.Online.lean ====
/-
  The online (blockwise, running-maximum) evaluation of a softmax-weighted average agrees with the direct one.

  A row of scores arrives block by block. The running state is a maximum `m`, a weight sum `l` and a weighted sum `a`;
  a new block rescales the old sums by `exp (m - m')` (`m'` the new maximum) and adds the block's weights
  `exp (x - m')`. After any positive number of blocks `a / l` is the softmax-weighted average of the values seen so far,
  because a common factor `exp (-M)` cancels between numerator and denominator. All scores and values are real numbers;
  the state lives on the extended reals because it starts at `m = ⊥`, where `exp (⊥ - m') = 0`.
-/
import Idealize.ShloMosaic.PureOps.Ideal

noncomputable section

namespace Cert.Online

open Idealize.ShloMosaic

/-- A finite sum of real numbers, read on the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reading of a maximum of two reals is the maximum of the readings. -/
theorem coe_max (a b : ℝ) : ((max a b : ℝ) : EReal) = max (a : EReal) (b : EReal) :=
  EReal.coe_strictMono.monotone.map_max

/-- A fold of `max` from `⊥` over a nonempty finite set of real numbers is a real number. -/
theorem fold_max_real {ι : Type*} (s : Finset ι) (hs : s.Nonempty) (f : ι → ℝ) :
    ∃ r : ℝ, s.fold max ⊥ (fun k => (f k : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr, coe_max]⟩

/-- The exponential of a difference of two reals, taken on the extended reals, is the real exponential. -/
theorem exp_sub_coe (a b : ℝ) : Ideal.exp ((a : EReal) - (b : EReal)) = ((Real.exp (a - b) : ℝ) : EReal) := by
  rw [← EReal.coe_sub, Ideal.exp_coe]

/-- Changing the reference point of the weights from `M` to `M'` multiplies every weight by `exp (M - M')`. -/
theorem rescale {ι κ : Type*} (s : Finset ι) (t : Finset κ) (x w : ι → κ → ℝ) (M M' : ℝ) :
    Real.exp (M - M') * ∑ i ∈ s, ∑ k ∈ t, Real.exp (x i k - M) * w i k
      = ∑ i ∈ s, ∑ k ∈ t, Real.exp (x i k - M') * w i k := by
  rw [Finset.mul_sum]
  refine Finset.sum_congr rfl (fun i _ => ?_)
  rw [Finset.mul_sum]
  refine Finset.sum_congr rfl (fun k _ => ?_)
  rw [← mul_assoc, ← Real.exp_add]
  congr 2
  ring

/-- The same without values. -/
theorem rescale_one {ι κ : Type*} (s : Finset ι) (t : Finset κ) (x : ι → κ → ℝ) (M M' : ℝ) :
    Real.exp (M - M') * ∑ i ∈ s, ∑ k ∈ t, Real.exp (x i k - M)
      = ∑ i ∈ s, ∑ k ∈ t, Real.exp (x i k - M') := by
  have h := rescale s t x (fun _ _ => 1) M M'
  simpa only [mul_one] using h

variable {κ : Type*} [Fintype κ] [Nonempty κ]

/-- The maximum of a block of real scores, as a fold of `max` from `⊥` on the extended reals. -/
def bmax (xs : κ → ℝ) : EReal := Finset.univ.fold max ⊥ (fun k => (xs k : EReal))

/-- The maximum of a block is a real number. -/
theorem bmax_real (xs : κ → ℝ) : ∃ r : ℝ, bmax xs = (r : EReal) :=
  fold_max_real Finset.univ Finset.univ_nonempty xs

/-- The new running maximum. -/
def stepM (m : EReal) (xs : κ → ℝ) : EReal := max m (bmax xs)

/-- The new weight sum: the old one rescaled, plus the block's weights. -/
def stepL (m l : EReal) (xs : κ → ℝ) : EReal :=
  Ideal.exp (m - stepM m xs) * l + ∑ k, Ideal.exp ((xs k : EReal) - stepM m xs)

/-- The new weighted sum: the old one rescaled, plus the block's weighted values. -/
def stepA (m a : EReal) (xs ys : κ → ℝ) : EReal :=
  Ideal.exp (m - stepM m xs) * a + ∑ k, Ideal.exp ((xs k : EReal) - stepM m xs) * (ys k : EReal)

/-- The state after `j` blocks: a real maximum `M`, and the two sums of the first `j` blocks' weights taken at `M`. -/
def Inv (x y : ℕ → κ → ℝ) (j : ℕ) (m l a : EReal) : Prop :=
  ∃ M : ℝ, m = (M : EReal)
    ∧ l = ((∑ i ∈ Finset.range j, ∑ k, Real.exp (x i k - M) : ℝ) : EReal)
    ∧ a = ((∑ i ∈ Finset.range j, ∑ k, Real.exp (x i k - M) * y i k : ℝ) : EReal)

/-- The first block, from the state `(⊥, 0, 0)`. -/
theorem inv_first (x y : ℕ → κ → ℝ) :
    Inv x y 1 (stepM ⊥ (x 0)) (stepL ⊥ 0 (x 0)) (stepA ⊥ 0 (x 0) (y 0)) := by
  obtain ⟨r, hr⟩ := bmax_real (x 0)
  have hM : stepM ⊥ (x 0) = (r : EReal) := by
    rw [stepM, hr]
    exact max_eq_right bot_le
  refine ⟨r, hM, ?_, ?_⟩
  · rw [stepL, hM, EReal.bot_sub, Ideal.exp_bot, zero_mul, zero_add, Finset.range_one, Finset.sum_singleton, coe_sum]
    exact Finset.sum_congr rfl (fun k _ => exp_sub_coe _ _)
  · rw [stepA, hM, EReal.bot_sub, Ideal.exp_bot, zero_mul, zero_add, Finset.range_one, Finset.sum_singleton, coe_sum]
    refine Finset.sum_congr rfl (fun k _ => ?_)
    rw [exp_sub_coe, EReal.coe_mul]

/-- One more block. -/
theorem inv_step (x y : ℕ → κ → ℝ) (j : ℕ) (m l a : EReal) (h : Inv x y j m l a) :
    Inv x y (j + 1) (stepM m (x j)) (stepL m l (x j)) (stepA m a (x j) (y j)) := by
  obtain ⟨M, rfl, rfl, rfl⟩ := h
  obtain ⟨r, hr⟩ := bmax_real (x j)
  have hM : stepM (M : EReal) (x j) = ((max M r : ℝ) : EReal) := by
    rw [stepM, hr, coe_max]
  refine ⟨max M r, hM, ?_, ?_⟩
  · rw [stepL, hM, exp_sub_coe, Finset.sum_range_succ, ← rescale_one _ _ x M (max M r), EReal.coe_add,
      EReal.coe_mul]
    congr 1
    rw [coe_sum]
    exact Finset.sum_congr rfl (fun k _ => exp_sub_coe _ _)
  · rw [stepA, hM, exp_sub_coe, Finset.sum_range_succ, ← rescale _ _ x y M (max M r), EReal.coe_add,
      EReal.coe_mul]
    congr 1
    rw [coe_sum]
    refine Finset.sum_congr rfl (fun k _ => ?_)
    rw [exp_sub_coe, EReal.coe_mul]

/-- After a positive number of blocks the quotient is the softmax-weighted average. -/
theorem inv_final (x y : ℕ → κ → ℝ) (j : ℕ) (hj : 0 < j) (m l a : EReal) (h : Inv x y j m l a) :
    Ideal.div a l
      = (((∑ i ∈ Finset.range j, ∑ k, Real.exp (x i k) * y i k) / (∑ i ∈ Finset.range j, ∑ k, Real.exp (x i k)) : ℝ) : EReal) := by
  obtain ⟨M, rfl, rfl, rfl⟩ := h
  have hD : 0 < ∑ i ∈ Finset.range j, ∑ k : κ, Real.exp (x i k) :=
    Finset.sum_pos (fun i _ => Finset.sum_pos (fun k _ => Real.exp_pos _) Finset.univ_nonempty)
      (Finset.nonempty_range_iff.mpr hj.ne')
  have hE : Real.exp (0 - M) ≠ 0 := (Real.exp_pos _).ne'
  have hL : ∑ i ∈ Finset.range j, ∑ k : κ, Real.exp (x i k - M)
      = Real.exp (0 - M) * ∑ i ∈ Finset.range j, ∑ k : κ, Real.exp (x i k) := by
    rw [← rescale_one _ _ x 0 M]
    simp only [sub_zero]
  have hA : ∑ i ∈ Finset.range j, ∑ k : κ, Real.exp (x i k - M) * y i k
      = Real.exp (0 - M) * ∑ i ∈ Finset.range j, ∑ k : κ, Real.exp (x i k) * y i k := by
    rw [← rescale _ _ x y 0 M]
    simp only [sub_zero]
  have hL0 : ∑ i ∈ Finset.range j, ∑ k : κ, Real.exp (x i k - M) ≠ 0 := by
    rw [hL]
    exact mul_ne_zero hE hD.ne'
  rw [Ideal.div_coe hL0, ← EReal.coe_mul, hA, hL, mul_one_div, mul_div_mul_left _ _ hE]

/-- The direct evaluation: subtract the maximum (taken from `⊥`), exponentiate, divide each weight by the weights' sum
    (taken from `0`), average. -/
theorem direct {ι : Type*} [Fintype ι] [Nonempty ι] (X Y : ι → ℝ) :
    (let s : ι → EReal := fun e => (X e : EReal)
     let M : EReal := max ⊥ (Finset.univ.fold max ⊥ s)
     let den : EReal := 0 + ∑ e, Ideal.exp (s e - M)
     ∑ e, Ideal.div (Ideal.exp (s e - M)) den * (Y e : EReal))
      = (((∑ e, Real.exp (X e) * Y e) / (∑ e, Real.exp (X e)) : ℝ) : EReal) := by
  obtain ⟨r, hr⟩ := fold_max_real Finset.univ Finset.univ_nonempty X
  have hM : max ⊥ (Finset.univ.fold max ⊥ (fun e => (X e : EReal))) = (r : EReal) := by
    rw [hr]
    exact max_eq_right bot_le
  have hS : 0 < ∑ e, Real.exp (X e) := Finset.sum_pos (fun e _ => Real.exp_pos _) Finset.univ_nonempty
  have hE : Real.exp (-r) ≠ 0 := (Real.exp_pos _).ne'
  have hden : ∑ e, Real.exp (X e - r) = Real.exp (-r) * ∑ e, Real.exp (X e) := by
    rw [Finset.mul_sum]
    refine Finset.sum_congr rfl (fun e _ => ?_)
    rw [sub_eq_add_neg, Real.exp_add, mul_comm]
  have hden0 : ∑ e, Real.exp (X e - r) ≠ 0 := by
    rw [hden]
    exact mul_ne_zero hE hS.ne'
  show ∑ e, Ideal.div (Ideal.exp ((X e : EReal) - max ⊥ (Finset.univ.fold max ⊥ (fun e => (X e : EReal)))))
        (0 + ∑ e, Ideal.exp ((X e : EReal) - max ⊥ (Finset.univ.fold max ⊥ (fun e => (X e : EReal))))) * (Y e : EReal)
      = (((∑ e, Real.exp (X e) * Y e) / (∑ e, Real.exp (X e)) : ℝ) : EReal)
  rw [hM, zero_add]
  have hsum : ∑ e, Ideal.exp ((X e : EReal) - (r : EReal)) = ((∑ e, Real.exp (X e - r) : ℝ) : EReal) := by
    rw [coe_sum]
    exact Finset.sum_congr rfl (fun e _ => exp_sub_coe _ _)
  rw [hsum, Finset.sum_div Finset.univ (fun e => Real.exp (X e) * Y e) (∑ e, Real.exp (X e)),
    coe_sum Finset.univ (fun e => Real.exp (X e) * Y e / ∑ e, Real.exp (X e))]
  refine Finset.sum_congr rfl (fun e _ => ?_)
  rw [Ideal.div_coe hden0, exp_sub_coe, ← EReal.coe_mul, ← EReal.coe_mul, hden, sub_eq_add_neg, Real.exp_add]
  congr 1
  field_simp

/-- A sum over `n` consecutive blocks of `K` is the sum over the `n * K` positions. -/
theorem sum_blocks (g : ℕ → ℝ) (n K : ℕ) :
    ∑ i ∈ Finset.range n, ∑ k : Fin K, g (K * i + k.val) = ∑ e : Fin (n * K), g e.val := by
  rw [Finset.sum_range (fun i => ∑ k : Fin K, g (K * i + k.val)),
    ← Equiv.sum_comp finProdFinEquiv (fun e : Fin (n * K) => g e.val), Fintype.sum_prod_type]
  refine Finset.sum_congr rfl (fun i _ => Finset.sum_congr rfl (fun k _ => ?_))
  rw [finProdFinEquiv_apply_val, add_comm]

end Cert.Online

end
-- ==== Proof.RefG.lean ====
/-
  On arrays of real numbers the specification's textbook softmax average is the closed form over the reals.

  With every entry of the two arrays a real number, each score `∑_k enc(b,e,k) · dec(b,t,k)` taken on the extended reals is
  the real score; and the average spelled through the row maximum, the weights `exp (s - max)` and their sum is
  `(∑_e exp s(e) · enc(b,e,d)) / (∑_e exp s(e))`, because the common factor `exp (-max)` cancels.
-/
import proofs.«134668_j29755533427577_2_alg».proof.Proof.Spec
import proofs.«134668_j29755533427577_2_alg».proof.Proof.Online

noncomputable section

namespace Cert.RefG

open Idealize.ShloMosaic Idealize.ShloMosaic.ValueIdx Cert.Spec

/-- The score of two arrays of real numbers, taken on the extended reals, is the real score. -/
theorem score_coe (encR decR : SA.Idx → ℝ) (b : Fin 8) (t e : Fin 2048) :
    score (fun i => ((encR i : ℝ) : EReal)) (fun i => ((decR i : ℝ) : EReal)) b t e
      = ((scoreR encR decR b t e : ℝ) : EReal) := by
  unfold score scoreR
  rw [Cert.Online.coe_sum]
  exact Finset.sum_congr rfl fun k _ => (EReal.coe_mul _ _).symm

/-- On arrays of real numbers the textbook softmax average at (b, t, d) is the closed form. -/
theorem refAt_real (encR decR : SA.Idx → ℝ) (b : Fin 8) (t : Fin 2048) (d : Fin 512) :
    refAt (fun i => ((encR i : ℝ) : EReal)) (fun i => ((decR i : ℝ) : EReal)) b t d
      = ((GatR encR decR b t d : ℝ) : EReal) := by
  have h := Cert.Online.direct (fun e : Fin 2048 => scoreR encR decR b t e) (fun e : Fin 2048 => encR (ix3 b e d))
  unfold refAt GatR
  simp only [score_coe]
  exact h

/-- The same for the whole array. -/
theorem refAt_eq_G (encR decR : SA.Idx → ℝ) :
    (fun i : SA.Idx => refAt (fun i => ((encR i : ℝ) : EReal)) (fun i => ((decR i : ℝ) : EReal)) (i 0) (i 1) (i 2))
      = G encR decR := by
  funext i
  exact refAt_real encR decR (i 0) (i 1) (i 2)

end Cert.RefG

end
-- ==== Proof.Blocks.lean ====
/-
  From the kernel's blocks to whole arrays.

  The kernel runs on a grid of 8 × 2 × 4 points, the last axis fastest: point `t` works on batch `t / 8`, on the
  `(t / 4) % 2`-th tile of 1024 decoder rows and on the `t % 4`-th tile of 512 encoder rows. Its two input blocks are those
  rows of the decoder and of the encoder array; its output block is the decoder tile's rows of the result, written back
  after the last encoder tile, that is at the points with `t % 4 = 3`. The 16 write-backs tile the result array, so once the
  block each of them writes is known to be that block of one whole-array function, the result array is that function.
-/
import proofs.«134668_j29755533427577_2_alg».proof.Proof.Gen.KernelIdeal.Value
import Idealize.ShloMosaic.Lib.ValueIdx

noncomputable section

namespace Cert.KernelIdeal.Blocks

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)

variable {F : FTy → Type} [FloatOps F]
variable (m : (ℓ : Loc nD τ sig) → Buf (Elt F) ℓ)

/-- The batch of a grid point is below 8. -/
theorem batch_lt (t : Fin cfg0.N) : t.val / 8 < 8 := by
  have h := t.isLt; have hN : cfg0.N = 64 := N_0; omega

/-- A row of a point's decoder tile is a row of the array. -/
theorem qrow_lt (t : Fin cfg0.N) (q : Fin 1024) : 1024 * ((t.val / 4) % 2) + q.val < 2048 := by
  have h := q.isLt; omega

/-- A row of a point's encoder tile is a row of the array. -/
theorem krow_lt (t : Fin cfg0.N) (k : Fin 512) : 512 * (t.val % 4) + k.val < 2048 := by
  have h := k.isLt; omega

/-- The decoder window's block index at point `t`: (batch, decoder tile, 0). -/
theorem idx_dec : ∀ t : Fin cfg0.N, win0_0.index t (0 : Fin 3) = t.val / 8 ∧ win0_0.index t (1 : Fin 3) = (t.val / 4) % 2
    ∧ win0_0.index t (2 : Fin 3) = 0 :=
  (by decide +kernel : ∀ t : Fin grid0.N, _)

/-- The encoder window's block index at point `t`: (batch, encoder tile, 0). -/
theorem idx_enc : ∀ t : Fin cfg0.N, win0_1.index t (0 : Fin 3) = t.val / 8 ∧ win0_1.index t (1 : Fin 3) = t.val % 4
    ∧ win0_1.index t (2 : Fin 3) = 0 :=
  (by decide +kernel : ∀ t : Fin grid0.N, _)

/-- The output window's block index at point `t`: (batch, decoder tile, 0). -/
theorem idx_out : ∀ t : Fin cfg0.N, win0_2.index t (0 : Fin 3) = t.val / 8 ∧ win0_2.index t (1 : Fin 3) = (t.val / 4) % 2
    ∧ win0_2.index t (2 : Fin 3) = 0 :=
  (by decide +kernel : ∀ t : Fin grid0.N, _)

/-- The decoder block at point `t`, at row `q` and feature `d`, is the decoder array at
    (batch, 1024 · tile + q, d). -/
theorem iblk0_apply (c : Dev nD) (t : Fin cfg0.N) (q : Fin 1024) (d : Fin 512) :
    iblk m c 0 t (ix3 (0 : Fin 1) q d)
      = V m c main_arg1 (ix3 (⟨t.val / 8, batch_lt t⟩ : Fin 8) (⟨1024 * ((t.val / 4) % 2) + q.val, qrow_lt t q⟩ : Fin 2048) d) := by
  obtain ⟨e0, e1, e2⟩ := idx_dec t
  unfold iblk
  rw [View.read_apply]
  show V m c main_arg1 (((cfg0.win 0).blk t).view.emb _) = V m c main_arg1 _
  refine congrArg _ (funext fun a => Fin.ext ?_)
  match a with
  | ⟨0, _⟩ => show win0_0.index t (0 : Fin 3) * 1 + 1 * 0 = t.val / 8; omega
  | ⟨1, _⟩ => show win0_0.index t (1 : Fin 3) * 1024 + 1 * q.val = 1024 * ((t.val / 4) % 2) + q.val; omega
  | ⟨2, _⟩ => show win0_0.index t (2 : Fin 3) * 512 + 1 * d.val = d.val; omega

/-- The encoder block at point `t`, at row `k` and feature `d`, is the encoder array at
    (batch, 512 · tile + k, d). -/
theorem iblk1_apply (c : Dev nD) (t : Fin cfg0.N) (k : Fin 512) (d : Fin 512) :
    iblk m c 1 t (ix3 (0 : Fin 1) k d)
      = V m c main_arg0 (ix3 (⟨t.val / 8, batch_lt t⟩ : Fin 8) (⟨512 * (t.val % 4) + k.val, krow_lt t k⟩ : Fin 2048) d) := by
  obtain ⟨e0, e1, e2⟩ := idx_enc t
  unfold iblk
  rw [View.read_apply]
  show V m c main_arg0 (((cfg0.win 1).blk t).view.emb _) = V m c main_arg0 _
  refine congrArg _ (funext fun a => Fin.ext ?_)
  match a with
  | ⟨0, _⟩ => show win0_1.index t (0 : Fin 3) * 1 + 1 * 0 = t.val / 8; omega
  | ⟨1, _⟩ => show win0_1.index t (1 : Fin 3) * 512 + 1 * k.val = 512 * (t.val % 4) + k.val; omega
  | ⟨2, _⟩ => show win0_1.index t (2 : Fin 3) * 512 + 1 * d.val = d.val; omega

/-- What the last encoder tile leaves in the output block, as a block of one whole-array function `G`: after a point
    with `t % 4 = 3` the output block holds, at row `q` and feature `d`, `G` at (batch, 1024 · tile + q, d). -/
abbrev LastTileLeaves (c : Dev nD) (G : S8x2048x512.Idx → Elt F .f32) : Prop :=
  ∀ (t : Fin cfg0.N), t.val % 4 = 3 → ∀ (q : Fin 1024) (d : Fin 512),
    (outsAt0 m c t.val t.isLt).1 (ix3 (0 : Fin 1) q d)
      = G (ix3 (⟨t.val / 8, batch_lt t⟩ : Fin 8) (⟨1024 * ((t.val / 4) % 2) + q.val, qrow_lt t q⟩ : Fin 2048) d)

/-- What a point that writes back writes is its block of `G`: such a point has `t % 4 = 3`, and its block's rows are
    the rows 1024 · tile + q of batch `t / 8`. -/
theorem flushed_eq (c : Dev nD) (G : S8x2048x512.Idx → Elt F .f32) (hout : LastTileLeaves m c G)
    (t : Fin cfg0.N) (hf : (cfg0.win 2).flush t = true) :
    (dats m 0 c).flushed 2 t = ((cfg0.win 2).blk t).view.read (Elt F) G := by
  have h3 : t.val % 4 = 3 := (flush0_2 t).mp hf
  obtain ⟨e0, e1, e2⟩ := idx_out t
  rw [flushed2]
  refine funext fun (j : S1x1024x512.Idx) => ?_
  obtain ⟨q, d, rfl⟩ : ∃ (q : Fin 1024) (d : Fin 512), j = ix3 (0 : Fin 1) q d :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  show (outsAt0 m c t.val t.isLt).1 (ix3 (0 : Fin 1) q d) = G (((cfg0.win 2).blk t).view.emb (ix3 (0 : Fin 1) q d))
  rw [hout t h3 q d]
  refine congrArg G (funext fun a => Fin.ext ?_)
  match a with
  | ⟨0, _⟩ => show t.val / 8 = win0_2.index t (0 : Fin 3) * 1 + 1 * 0; omega
  | ⟨1, _⟩ => show 1024 * ((t.val / 4) % 2) + q.val = win0_2.index t (1 : Fin 3) * 1024 + 1 * q.val; omega
  | ⟨2, _⟩ => show d.val = win0_2.index t (2 : Fin 3) * 512 + 1 * d.val; omega

/-- Every index (b, r, d) of the result array is in the block of a point that writes back: the point of batch `b`,
    decoder tile `r / 1024` and the last encoder tile. -/
theorem cover (i : S8x2048x512.Idx) :
    ∃ t : Fin cfg0.N, (cfg0.win 2).flush t = true ∧ i ∈ ((cfg0.win 2).blk t).view.set := by
  have hN : cfg0.N = 64 := N_0
  have hb : (i 0).val < 8 := (i 0).isLt
  have hr : (i 1).val < 2048 := (i 1).isLt
  have hd : (i 2).val < 512 := (i 2).isLt
  obtain ⟨t, ht⟩ : ∃ t : Fin cfg0.N, t.val = 8 * (i 0).val + 4 * ((i 1).val / 1024) + 3 :=
    ⟨⟨8 * (i 0).val + 4 * ((i 1).val / 1024) + 3, by omega⟩, rfl⟩
  obtain ⟨e0, e1, e2⟩ := idx_out t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- So the result array ends holding `G`. -/
theorem final (c : Dev nD) (G : S8x2048x512.Idx → Elt F .f32) (hout : LastTileLeaves m c G) :
    (dats m 0 c).arrAt 2 cfg0.N = G :=
  (dats m 0 c).arrAt_eq_of_cover 2 G (fun t hf => flushed_eq m c G hout t hf) cover

/-- The run, read: the result array at `G`, the two arguments unchanged. -/
theorem run_G (ρ : Dev nD → PrngReg) (G : Dev nD → S8x2048x512.Idx → Elt F .f32) (hout : ∀ c, LastTileLeaves m c (G c)) :
    θ_run defs (onTc (τ := τ) (main (F := F))) ⟨m, fun _ => 0, ρ⟩ fun r => ∀ c : Dev nD,
      r.2.mem ((c : Thread nD τ).loc main_v0) = G c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (G c) (hout c)), (h c).2⟩) (run_blocks m ρ)

end Cert.KernelIdeal.Blocks

end
-- ==== Proof.Pieces.lean ====
import proofs.«134668_j29755533427577_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the body leaves in the three carried scratch buffers (the running maximum, the running
    weight sum, the running weighted sum) and, at a row block's last key block, in the output block: the body's own
    arithmetic terms applied to the blocks it loaded. At a row block's first key block the scratch is first reset to
    (-∞, 0, 0) and then updated, so the update reads the reset values. -/
namespace Cert.KernelIdeal.Pieces
open Cert.KernelIdeal Cert.KernelIdeal.Gen
variable {F : FTy → Type} [FloatOps F]

theorem hz3 : (![0, 0, 0] : Fin 3 → Nat) = fun _ => 0 := funext fun a => by fin_cases a <;> rfl

theorem sout_B_0 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : ¬cond0_1 i)
    (x0 : Vec F S1x1024x512 .f32) (x1 : Vec F S1x512x512 .f32) (xs0 : Vec F S1x1024x1 .f32) (xs1 : Vec F S1x1024x1 .f32) (xs2 : Vec F S1x1024x512 .f32) :
    sout0_B_0 c i arg3 harg3 arg4 harg4 arg5 harg5 arg6 harg6 arg7 harg7 arg8 harg8 hc0 hc1 x0 x1 xs0 xs1 xs2 = k0_pay2 (k0_pay9 x0 x1 xs0) := by
  unfold sout0_B_0
  rw [View.read_writes_eq_canon _ _ _ (scover0_B_0 c i arg3 harg3 arg4 harg4 arg5 harg5 arg6 harg6 arg7 harg7 arg8 harg8 hc0 hc1 x0 x1 xs0 xs1 xs2)]
  unfold kernelRun0_B
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1024x512) hz3, View.ld_unit_zero (S := S1x512x512) hz3, View.ld_unit_zero (S := S1x1024x1) hz3]

theorem sout_B_1 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : ¬cond0_1 i)
    (x0 : Vec F S1x1024x512 .f32) (x1 : Vec F S1x512x512 .f32) (xs0 : Vec F S1x1024x1 .f32) (xs1 : Vec F S1x1024x1 .f32) (xs2 : Vec F S1x1024x512 .f32) :
    sout0_B_1 c i arg3 harg3 arg4 harg4 arg5 harg5 arg6 harg6 arg7 harg7 arg8 harg8 hc0 hc1 x0 x1 xs0 xs1 xs2 = k0_pay12 x0 x1 xs0 xs0 xs1 := by
  unfold sout0_B_1
  rw [View.read_writes_eq_canon _ _ _ (scover0_B_1 c i arg3 harg3 arg4 harg4 arg5 harg5 arg6 harg6 arg7 harg7 arg8 harg8 hc0 hc1 x0 x1 xs0 xs1 xs2)]
  unfold kernelRun0_B
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1024x512) hz3, View.ld_unit_zero (S := S1x512x512) hz3, View.ld_unit_zero (S := S1x1024x1) hz3]

theorem sout_B_2 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : ¬cond0_1 i)
    (x0 : Vec F S1x1024x512 .f32) (x1 : Vec F S1x512x512 .f32) (xs0 : Vec F S1x1024x1 .f32) (xs1 : Vec F S1x1024x1 .f32) (xs2 : Vec F S1x1024x512 .f32) :
    sout0_B_2 c i arg3 harg3 arg4 harg4 arg5 harg5 arg6 harg6 arg7 harg7 arg8 harg8 hc0 hc1 x0 x1 xs0 xs1 xs2 = k0_pay1 (k0_pay10 x0 x1 xs0 xs0) (k0_pay13 x0 x1 xs0) xs2 := by
  unfold sout0_B_2
  rw [View.read_writes_eq_canon _ _ _ (scover0_B_2 c i arg3 harg3 arg4 harg4 arg5 harg5 arg6 harg6 arg7 harg7 arg8 harg8 hc0 hc1 x0 x1 xs0 xs1 xs2)]
  unfold kernelRun0_B
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1024x512) hz3, View.ld_unit_zero (S := S1x512x512) hz3, View.ld_unit_zero (S := S1x1024x1) hz3]

theorem sout_C_0 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : cond0_1 i)
    (x0 : Vec F S1x1024x512 .f32) (x1 : Vec F S1x512x512 .f32) (xs0 : Vec F S1x1024x1 .f32) (xs1 : Vec F S1x1024x1 .f32) (xs2 : Vec F S1x1024x512 .f32) :
    sout0_C_0 c i arg3 harg3 arg4 harg4 arg5 harg5 arg6 harg6 arg7 harg7 arg8 harg8 hc0 hc1 x0 x1 xs0 xs1 xs2 = k0_pay2 (k0_pay9 x0 x1 xs0) := by
  unfold sout0_C_0
  rw [View.read_writes_eq_canon _ _ _ (scover0_C_0 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1024x512) hz3, View.ld_unit_zero (S := S1x512x512) hz3, View.ld_unit_zero (S := S1x1024x1) hz3]

theorem sout_C_1 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : cond0_1 i)
    (x0 : Vec F S1x1024x512 .f32) (x1 : Vec F S1x512x512 .f32) (xs0 : Vec F S1x1024x1 .f32) (xs1 : Vec F S1x1024x1 .f32) (xs2 : Vec F S1x1024x512 .f32) :
    sout0_C_1 c i arg3 harg3 arg4 harg4 arg5 harg5 arg6 harg6 arg7 harg7 arg8 harg8 hc0 hc1 x0 x1 xs0 xs1 xs2 = k0_pay12 x0 x1 xs0 xs0 xs1 := by
  unfold sout0_C_1
  rw [View.read_writes_eq_canon _ _ _ (scover0_C_1 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1024x512) hz3, View.ld_unit_zero (S := S1x512x512) hz3, View.ld_unit_zero (S := S1x1024x1) hz3]

theorem sout_C_2 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : cond0_1 i)
    (x0 : Vec F S1x1024x512 .f32) (x1 : Vec F S1x512x512 .f32) (xs0 : Vec F S1x1024x1 .f32) (xs1 : Vec F S1x1024x1 .f32) (xs2 : Vec F S1x1024x512 .f32) :
    sout0_C_2 c i arg3 harg3 arg4 harg4 arg5 harg5 arg6 harg6 arg7 harg7 arg8 harg8 hc0 hc1 x0 x1 xs0 xs1 xs2 = k0_pay1 (k0_pay10 x0 x1 xs0 xs0) (k0_pay13 x0 x1 xs0) xs2 := by
  unfold sout0_C_2
  rw [View.read_writes_eq_canon _ _ _ (scover0_C_2 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readAt_eq_ld, harg3.read_unread, harg4.read_unread, harg5.read_unread, harg6.read_unread, harg7.read_unread, harg8.read_unread,
    View.ld_unit_zero (S := S1x1024x512) hz3, View.ld_unit_zero (S := S1x512x512) hz3, View.ld_unit_zero (S := S1x1024x1) hz3]

theorem out_C_2 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : ¬cond0_0 i) (hc1 : cond0_1 i)
    (x0 : Vec F S1x1024x512 .f32) (x1 : Vec F S1x512x512 .f32) (xs0 : Vec F S1x1024x1 .f32) (xs1 : Vec F S1x1024x1 .f32) (xs2 : Vec F S1x1024x512 .f32) :
    out0_C_2 c i arg3 harg3 arg4 harg4 arg5 harg5 arg6 harg6 arg7 harg7 arg8 harg8 hc0 hc1 x0 x1 xs0 xs1 xs2
      = k0_pay3 (k0_pay1 (k0_pay10 x0 x1 xs0 xs0) (k0_pay13 x0 x1 xs0) xs2) (k0_pay12 x0 x1 xs0 xs0 xs1) := by
  unfold out0_C_2
  rw [View.read_writes_eq_canon _ _ _ (cover0_C_2 c i arg3 harg3 arg4 harg4 arg5 harg5 arg6 harg6 arg7 harg7 arg8 harg8 hc0 hc1 x0 x1 xs0 xs1 xs2)]
  unfold kernelRun0_C
  dsimp only
  sl_unfold_words
  rw [View.canon_unit_zero hz3]
  simp only [View.readAt_eq_ld, harg3.read_unread, harg4.read_unread, harg5.read_unread, harg6.read_unread, harg7.read_unread, harg8.read_unread,
    View.readCov_unit_zero (S := S1x1024x512) _ hz3, View.readCov_unit_zero (S := S1x1024x1) _ hz3,
    View.ld_unit_zero (S := S1x1024x512) hz3, View.ld_unit_zero (S := S1x512x512) hz3, View.ld_unit_zero (S := S1x1024x1) hz3]

theorem sout_A_0 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : cond0_0 i) (hc1 : ¬cond0_1 i)
    (x0 : Vec F S1x1024x512 .f32) (x1 : Vec F S1x512x512 .f32) :
    sout0_A_0 c i arg3 harg3 arg4 harg4 arg5 harg5 arg6 harg6 arg7 harg7 arg8 harg8 hc0 hc1 x0 x1 = k0_pay2 (k0_pay9 x0 x1 (k0_pay4 (F := F))) := by
  unfold sout0_A_0
  rw [View.read_writes_eq_canon _ _ _ (scover0_A_0 c i arg3 harg3 arg4 harg4 arg5 harg5 arg6 harg6 arg7 harg7 arg8 harg8 hc0 hc1 x0 x1)]
  unfold kernelRun0_A
  dsimp only
  sl_unfold_words
  rw [View.canon_cons_unit_zero (S := S1x1024x1) hz3]
  simp only [View.readAt_eq_ld, harg3.read_unread, harg4.read_unread, harg5.read_unread, harg6.read_unread, harg7.read_unread, harg8.read_unread,
    View.readCov_unit_zero (S := S1x1024x512) _ hz3, View.readCov_unit_zero (S := S1x1024x1) _ hz3,
    View.ld_unit_zero (S := S1x1024x512) hz3, View.ld_unit_zero (S := S1x512x512) hz3, View.ld_unit_zero (S := S1x1024x1) hz3]

theorem sout_A_1 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : cond0_0 i) (hc1 : ¬cond0_1 i)
    (x0 : Vec F S1x1024x512 .f32) (x1 : Vec F S1x512x512 .f32) :
    sout0_A_1 c i arg3 harg3 arg4 harg4 arg5 harg5 arg6 harg6 arg7 harg7 arg8 harg8 hc0 hc1 x0 x1 = k0_pay12 x0 x1 (k0_pay4 (F := F)) (k0_pay4 (F := F)) (k0_pay5 (F := F)) := by
  unfold sout0_A_1
  rw [View.read_writes_eq_canon _ _ _ (scover0_A_1 c i arg3 harg3 arg4 harg4 arg5 harg5 arg6 harg6 arg7 harg7 arg8 harg8 hc0 hc1 x0 x1)]
  unfold kernelRun0_A
  dsimp only
  sl_unfold_words
  rw [View.canon_cons_unit_zero (S := S1x1024x1) hz3]
  simp only [View.readAt_eq_ld, harg3.read_unread, harg4.read_unread, harg5.read_unread, harg6.read_unread, harg7.read_unread, harg8.read_unread,
    View.readCov_unit_zero (S := S1x1024x512) _ hz3, View.readCov_unit_zero (S := S1x1024x1) _ hz3,
    View.ld_unit_zero (S := S1x1024x512) hz3, View.ld_unit_zero (S := S1x512x512) hz3, View.ld_unit_zero (S := S1x1024x1) hz3]

theorem sout_A_2 (c : Dev nD) (i : grid0.Coords) (arg3 : Memref sig .tc .vmem S1x1024x512 .f32) (harg3 : arg3.IsWhole) (arg4 : Memref sig .tc .vmem S1x512x512 .f32) (harg4 : arg4.IsWhole) (arg5 : Memref sig .tc .vmem S1x1024x512 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1x1024x512 .f32) (harg8 : arg8.IsWhole) (hc0 : cond0_0 i) (hc1 : ¬cond0_1 i)
    (x0 : Vec F S1x1024x512 .f32) (x1 : Vec F S1x512x512 .f32) :
    sout0_A_2 c i arg3 harg3 arg4 harg4 arg5 harg5 arg6 harg6 arg7 harg7 arg8 harg8 hc0 hc1 x0 x1 = k0_pay1 (k0_pay10 x0 x1 (k0_pay4 (F := F)) (k0_pay4 (F := F))) (k0_pay13 x0 x1 (k0_pay4 (F := F))) (k0_pay6 (F := F)) := by
  unfold sout0_A_2
  rw [View.read_writes_eq_canon _ _ _ (scover0_A_2 c i arg3 harg3 arg4 harg4 arg5 harg5 arg6 harg6 arg7 harg7 arg8 harg8 hc0 hc1 x0 x1)]
  unfold kernelRun0_A
  dsimp only
  sl_unfold_words
  rw [View.canon_cons_unit_zero (S := S1x1024x512) hz3]
  simp only [View.readAt_eq_ld, harg3.read_unread, harg4.read_unread, harg5.read_unread, harg6.read_unread, harg7.read_unread, harg8.read_unread,
    View.readCov_unit_zero (S := S1x1024x512) _ hz3, View.readCov_unit_zero (S := S1x1024x1) _ hz3,
    View.ld_unit_zero (S := S1x1024x512) hz3, View.ld_unit_zero (S := S1x512x512) hz3, View.ld_unit_zero (S := S1x1024x1) hz3]

end Cert.KernelIdeal.Pieces
end
-- ==== Proof.LibDotBatch.lean ====
/-
  A batched matrix product with one batch axis and one contracted axis, read at an entry: for rank-three
  operands [B, M, K] × [B, K, N] → [B, M, N] whose dimension numbers pair axis 0 of both operands as the
  batch axis and contract axis 2 of the left operand with axis 1 of the right one, the sum over the record's
  contraction index is the sum over `k : Fin K` of left entry `(e, r, k)` times right entry `(e, k, c)`.
  The eight coordinate facts about the record's operand indices are hypotheses; for a record with literal
  dimension lists each is `fun _ _ => rfl` or the library's single-axis lemma. The host's product
  (`dotGeneral_ix3`) and the kernel's product into a zero accumulator (`matmul_ix3`) are both that sum.
-/
import Mathlib
import Idealize.ShloMosaic.Lib.ValueIdx
import Idealize.ShloMosaic.PureOps.Ideal.Laws

namespace Cert.LibDotBatch

open Idealize.ShloMosaic Idealize.ShloMosaic.ValueIdx

/-- The coordinate facts of a batched rows-by-columns product's dimension numbers. -/
structure Batched {B M K N : Nat} (d : DotDims ⟨3, ![B, M, K]⟩ ⟨3, ![B, K, N]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (j 0).val
  hr1 : ∀ j k, (d.rhsIdx j k 1).val = (k ⟨0, by omega⟩).val
  hr2 : ∀ j k, (d.rhsIdx j k 2).val = (j 2).val

theorem dot_sum {B M K N : Nat} {d : DotDims ⟨3, ![B, M, K]⟩ ⟨3, ![B, K, N]⟩ ⟨3, ![B, M, N]⟩} (hd : Batched d)
    (lhs : (⟨3, ![B, M, K]⟩ : Shape).Idx → EReal) (rhs : (⟨3, ![B, K, N]⟩ : Shape).Idx → EReal)
    (e : Fin B) (r : Fin M) (c : Fin N) :
    ∑ k : d.contr.Idx, lhs (d.lhsIdx (ix3 e r c) k) * rhs (d.rhsIdx (ix3 e r c) k)
      = ∑ k : Fin K, lhs (ix3 e r k) * rhs (ix3 e k c) := by
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix3 e k c := by
    funext a; apply Fin.ext
    match a with
    | ⟨0, _⟩ => exact hd.hr0 _ _
    | ⟨1, _⟩ => exact (hd.hr1 _ _).trans ek
    | ⟨2, _⟩ => exact hd.hr2 _ _
  rw [el, er]

/-- The host's batched product, at entry (e, r, c). -/
theorem dotGeneral_ix3 {B M K N : Nat} {d : DotDims ⟨3, ![B, M, K]⟩ ⟨3, ![B, K, N]⟩ ⟨3, ![B, M, N]⟩} (hd : Batched d)
    {φ₁ φ₂ : FTy} (prec : Option ContractPrecision) (a : FVec Ideal ⟨3, ![B, M, K]⟩ φ₁) (b : FVec Ideal ⟨3, ![B, K, N]⟩ φ₂)
    (e : Fin B) (r : Fin M) (c : Fin N) :
    Host.dotGeneral d prec a b (ix3 e r c) = ∑ k : Fin K, a (ix3 e r k) * b (ix3 e k c) :=
  (Ideal.dotGeneral_apply d prec _ a b (ix3 e r c)).trans (dot_sum hd a b e r c)

/-- The kernel's batched product into a zero accumulator, at entry (e, r, c). -/
theorem matmul_ix3 {B M K N : Nat} {d : DotDims ⟨3, ![B, M, K]⟩ ⟨3, ![B, K, N]⟩ ⟨3, ![B, M, N]⟩} (hd : Batched d)
    {φ₁ φ₂ : FTy} (prec : Option ContractPrecision) (a : FVec Ideal ⟨3, ![B, M, K]⟩ φ₁) (b : FVec Ideal ⟨3, ![B, K, N]⟩ φ₂)
    (e : Fin B) (r : Fin M) (c : Fin N) :
    matmul d prec a b (constant ⟨3, ![B, M, N]⟩ .f32 0x00000000#32) (ix3 e r c) = ∑ k : Fin K, a (ix3 e r k) * b (ix3 e k c) :=
  (Ideal.matmul_constant_zero_apply d prec a b (ix3 e r c)).trans (dot_sum hd a b e r c)

end Cert.LibDotBatch
-- ==== Proof.LibDotBatchT.lean ====
/-
  A batched matrix product against a TRANSPOSED right operand, read at an entry: for rank-three operands
  [B, M, K] × [B, N, K] → [B, M, N] whose dimension numbers pair axis 0 of both operands as the batch axis and
  contract axis 2 of the left operand with axis 2 of the right one (rows against rows: `q · kᵀ`), the sum over the
  record's contraction index is the sum over `k : Fin K` of left entry `(e, r, k)` times right entry `(e, c, k)`.
  The coordinate facts about the record's operand indices are hypotheses; for a record with literal dimension
  lists each is decided or the library's single-axis lemma. The host's product (`dotGeneral_ix3`) and the kernel's
  product into a zero accumulator (`matmul_ix3`) are both that sum.
-/
import Mathlib
import Idealize.ShloMosaic.Lib.ValueIdx
import Idealize.ShloMosaic.PureOps.Ideal.Laws

namespace Cert.LibDotBatchT

open Idealize.ShloMosaic Idealize.ShloMosaic.ValueIdx

/-- The coordinate facts of a batched rows-by-rows product's dimension numbers. -/
structure BatchedT {B M K N : Nat} (d : DotDims ⟨3, ![B, M, K]⟩ ⟨3, ![B, N, K]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (j 0).val
  hr1 : ∀ j k, (d.rhsIdx j k 1).val = (j 2).val
  hr2 : ∀ j k, (d.rhsIdx j k 2).val = (k ⟨0, by omega⟩).val

theorem dot_sum {B M K N : Nat} {d : DotDims ⟨3, ![B, M, K]⟩ ⟨3, ![B, N, K]⟩ ⟨3, ![B, M, N]⟩} (hd : BatchedT d)
    (lhs : (⟨3, ![B, M, K]⟩ : Shape).Idx → EReal) (rhs : (⟨3, ![B, N, K]⟩ : Shape).Idx → EReal)
    (e : Fin B) (r : Fin M) (c : Fin N) :
    ∑ k : d.contr.Idx, lhs (d.lhsIdx (ix3 e r c) k) * rhs (d.rhsIdx (ix3 e r c) k)
      = ∑ k : Fin K, lhs (ix3 e r k) * rhs (ix3 e c k) := by
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix3 e c k := by
    funext a; apply Fin.ext
    match a with
    | ⟨0, _⟩ => exact hd.hr0 _ _
    | ⟨1, _⟩ => exact hd.hr1 _ _
    | ⟨2, _⟩ => exact (hd.hr2 _ _).trans ek
  rw [el, er]

/-- The host's batched product against a transposed right operand, at entry (e, r, c). -/
theorem dotGeneral_ix3 {B M K N : Nat} {d : DotDims ⟨3, ![B, M, K]⟩ ⟨3, ![B, N, K]⟩ ⟨3, ![B, M, N]⟩} (hd : BatchedT d)
    {φ₁ φ₂ : FTy} (prec : Option ContractPrecision) (a : FVec Ideal ⟨3, ![B, M, K]⟩ φ₁) (b : FVec Ideal ⟨3, ![B, N, K]⟩ φ₂)
    (e : Fin B) (r : Fin M) (c : Fin N) :
    Host.dotGeneral d prec a b (ix3 e r c) = ∑ k : Fin K, a (ix3 e r k) * b (ix3 e c k) :=
  (Ideal.dotGeneral_apply d prec _ a b (ix3 e r c)).trans (dot_sum hd a b e r c)

/-- The kernel's batched product against a transposed right operand into a zero accumulator, at entry (e, r, c). -/
theorem matmul_ix3 {B M K N : Nat} {d : DotDims ⟨3, ![B, M, K]⟩ ⟨3, ![B, N, K]⟩ ⟨3, ![B, M, N]⟩} (hd : BatchedT d)
    {φ₁ φ₂ : FTy} (prec : Option ContractPrecision) (a : FVec Ideal ⟨3, ![B, M, K]⟩ φ₁) (b : FVec Ideal ⟨3, ![B, N, K]⟩ φ₂)
    (e : Fin B) (r : Fin M) (c : Fin N) :
    matmul d prec a b (constant ⟨3, ![B, M, N]⟩ .f32 0x00000000#32) (ix3 e r c) = ∑ k : Fin K, a (ix3 e r k) * b (ix3 e c k) :=
  (Ideal.matmul_constant_zero_apply d prec a b (ix3 e r c)).trans (dot_sum hd a b e r c)

end Cert.LibDotBatchT
-- ==== Proof.Pay.lean ====
import proofs.«134668_j29755533427577_2_alg».proof.Proof.Gen.KernelIdeal.Skeleton
import proofs.«134668_j29755533427577_2_alg».proof.Proof.LibDotBatch
import proofs.«134668_j29755533427577_2_alg».proof.Proof.LibDotBatchT
import Idealize.ShloMosaic.Lib.Pipeline.Value
import Idealize.ShloMosaic.Lib.ValueIdx
import Idealize.ShloMosaic.PureOps.Ideal.Laws

noncomputable section

open Idealize.ShloMosaic Idealize.ShloMosaic.ValueIdx

/-! The body's arithmetic, read entry by entry on the extended reals. `x0` is a block of 1024 query rows, `x1` a block
    of 512 key rows (which are also the value rows); `sc x0 x1 q k` is the score of query row `q` against key row `k`.
    Per query row the body takes the new maximum `max m (max_k s)`, rescales the old sums by `exp (m - m')`, and adds the
    block's weights `exp (s - m')` (to the weight sum) and weighted value rows (to the weighted sum). -/
namespace Cert.KernelIdeal.Pay
open Cert.KernelIdeal Cert.KernelIdeal.Gen

abbrev dQK := dot_S1x1024x512_S1x512x512_S1x1024x512_2_2_1_1_0_0
abbrev dPV := dot_S1x1024x512_S1x512x512_S1x1024x512_2_1_1_2_0_0

/-- The score product contracts the feature axis of both blocks. -/
theorem hQK : Cert.LibDotBatchT.BatchedT dQK where
  hrank := rfl
  hs := rfl
  hl0 := fun j k => by
    unfold DotDims.lhsIdx
    rw [dif_pos (show (0 : Fin S1x1024x512.rank) ∈ dQK.lhsBatch by decide)]
    rfl
  hl1 := fun j k => by
    unfold DotDims.lhsIdx
    rw [dif_neg (show ¬(1 : Fin S1x1024x512.rank) ∈ dQK.lhsBatch by decide), dif_pos (show (1 : Fin S1x1024x512.rank) ∈ dQK.lhsNonContracting by decide)]
    rfl
  hl2 := fun j k => dQK.lhsIdx_val_of_single rfl j k
  hr0 := fun j k => by
    unfold DotDims.rhsIdx
    rw [dif_pos (show (0 : Fin S1x512x512.rank) ∈ dQK.rhsBatch by decide)]
    rfl
  hr1 := fun j k => by
    unfold DotDims.rhsIdx
    rw [dif_neg (show ¬(1 : Fin S1x512x512.rank) ∈ dQK.rhsBatch by decide), dif_pos (show (1 : Fin S1x512x512.rank) ∈ dQK.rhsNonContracting by decide)]
    rfl
  hr2 := fun j k => dQK.rhsIdx_val_of_single rfl j k

/-- The weighted-value product contracts the weights' key axis with the value block's row axis. -/
theorem hPV : Cert.LibDotBatch.Batched dPV where
  hrank := rfl
  hs := rfl
  hl0 := fun j k => by
    unfold DotDims.lhsIdx
    rw [dif_pos (show (0 : Fin S1x1024x512.rank) ∈ dPV.lhsBatch by decide)]
    rfl
  hl1 := fun j k => by
    unfold DotDims.lhsIdx
    rw [dif_neg (show ¬(1 : Fin S1x1024x512.rank) ∈ dPV.lhsBatch by decide), dif_pos (show (1 : Fin S1x1024x512.rank) ∈ dPV.lhsNonContracting by decide)]
    rfl
  hl2 := fun j k => dPV.lhsIdx_val_of_single rfl j k
  hr0 := fun j k => by
    unfold DotDims.rhsIdx
    rw [dif_pos (show (0 : Fin S1x512x512.rank) ∈ dPV.rhsBatch by decide)]
    rfl
  hr1 := fun j k => dPV.rhsIdx_val_of_single rfl j k
  hr2 := fun j k => by
    unfold DotDims.rhsIdx
    rw [dif_neg (show ¬(2 : Fin S1x512x512.rank) ∈ dPV.rhsBatch by decide), dif_pos (show (2 : Fin S1x512x512.rank) ∈ dPV.rhsNonContracting by decide)]
    rfl

/-- The score of query row `q` against key row `k`. -/
def sc (x0 : Vec Ideal S1x1024x512 .f32) (x1 : Vec Ideal S1x512x512 .f32) (q : Fin 1024) (k : Fin 512) : EReal :=
  ∑ d : Fin 512, x0 (ix3 (0 : Fin 1) q d) * x1 (ix3 (0 : Fin 1) k d)

theorem pay8_apply (x0 : Vec Ideal S1x1024x512 .f32) (x1 : Vec Ideal S1x512x512 .f32) (q : Fin 1024) (k : Fin 512) :
    k0_pay8 (F := Ideal) x0 x1 (ix3 (0 : Fin 1) q k) = sc x0 x1 q k :=
  Cert.LibDotBatchT.matmul_ix3 hQK none (truncf .bf16 x0 bitsLt_bf16_f32 : FVec Ideal S1x1024x512 .bf16) (k0_pay7 (F := Ideal) x1) (0 : Fin 1) q k

/-! ## Two layout readings for a column kept as a trailing unit axis -/

/-- A `[1, a]` array cast to `[1, a, 1]` reads, at `(0, q, 0)`, the operand at `(0, q)`. -/
theorem cast_col {α : Type} {a : ℕ} (x : (⟨2, ![1, a]⟩ : Shape).Idx → α)
    (h : (⟨2, ![1, a]⟩ : Shape).ShapeCasts ⟨3, ![1, a, 1]⟩) (q : Fin a) :
    shapeCast ⟨3, ![1, a, 1]⟩ x h (ix3 (0 : Fin 1) q (0 : Fin 1)) = x (ix2 (0 : Fin 1) q) :=
  shapeCast_apply x h _ _ (by
    rw [Shape.rowMajor_val_two, Shape.rowMajor_val_three]
    show 0 * a + q.val = (0 * a + q.val) * 1 + 0
    omega)

/-- A `[1, a, 1]` column broadcast along the last axis to `[1, a, b]` reads, at `(0, q, d)`, the column at `(0, q, 0)`. -/
theorem bcast_col {α : Type} {a b : ℕ} (ha : a ≠ 1) (x : (⟨3, ![1, a, 1]⟩ : Shape).Idx → α)
    (h : (⟨3, ![1, a, 1]⟩ : Shape).Broadcasts ⟨3, ![1, a, b]⟩) (q : Fin a) (d : Fin b) :
    broadcastTo ⟨3, ![1, a, b]⟩ x h (ix3 (0 : Fin 1) q d) = x (ix3 (0 : Fin 1) q (0 : Fin 1)) :=
  broadcastTo_apply x h _ _ (fun c => match c with
    | ⟨0, _⟩ => rfl
    | ⟨1, _⟩ => by show q.val = if a = 1 then 0 else q.val; rw [if_neg ha]
    | ⟨2, _⟩ => rfl)

/-- The word of `-∞` denotes `⊥`. -/
theorem negInf : Ideal.ofBits .f32 0xFF800000#32 = ⊥ := by simp [Ideal.ofBits, Ideal.ieee]

/-- The index the lane reductions insert the lane `k` at, for row `q`. -/
theorem lift_row (q : Fin 1024) (k : Fin 512) :
    reduces_S1x1024x512_S1x1024.lift (ix2 (0 : Fin 1) q) k = ix3 (0 : Fin 1) q k :=
  funext fun a => Fin.ext (by match a with | ⟨0, _⟩ => rfl | ⟨1, _⟩ => rfl | ⟨2, _⟩ => rfl)

/-- The maximum of row `q`'s scores in this key block, folded from `⊥`. -/
def bm (x0 : Vec Ideal S1x1024x512 .f32) (x1 : Vec Ideal S1x512x512 .f32) (q : Fin 1024) : EReal :=
  Finset.univ.fold max ⊥ (fun k : Fin 512 => sc x0 x1 q k)

/-- The new running maximum of row `q`: the old one against the block's. -/
theorem pay9_apply (x0 : Vec Ideal S1x1024x512 .f32) (x1 : Vec Ideal S1x512x512 .f32) (v8 : Vec Ideal S1x1024x1 .f32) (q : Fin 1024) :
    k0_pay9 (F := Ideal) x0 x1 v8 (ix3 (0 : Fin 1) q (0 : Fin 1)) = max (v8 (ix3 (0 : Fin 1) q (0 : Fin 1))) (bm x0 x1 q) := by
  unfold k0_pay9
  refine congrArg (max (v8 (ix3 (0 : Fin 1) q (0 : Fin 1)))) ?_
  refine (cast_col _ shapeCasts_S1x1024_S1x1024x1 q).trans ?_
  refine (Ideal.multiReduction_maximumf_single (k0_pay8 (F := Ideal) x0 x1) 0xFF800000#32 reduces_S1x1024x512_S1x1024 (.inl rfl) rfl (ix2 (0 : Fin 1) q)).trans ?_
  unfold bm
  show Finset.univ.fold max (FloatOps.ofBits (F := Ideal) .f32 0xFF800000#32) (fun k : Fin 512 => k0_pay8 (F := Ideal) x0 x1 (reduces_S1x1024x512_S1x1024.lift (ix2 (0 : Fin 1) q) k))
    = Finset.univ.fold max ⊥ (fun k : Fin 512 => sc x0 x1 q k)
  rw [show FloatOps.ofBits (F := Ideal) .f32 0xFF800000#32 = ⊥ from negInf]
  refine congrArg (fun f : Fin 512 → EReal => Finset.univ.fold max ⊥ f) (funext fun k => ?_)
  exact (congrArg (k0_pay8 (F := Ideal) x0 x1) (lift_row q k)).trans (pay8_apply x0 x1 q k)

/-- The rescaling factor of row `q`: `exp (old maximum - new maximum)`. -/
theorem pay10_apply (x0 : Vec Ideal S1x1024x512 .f32) (x1 : Vec Ideal S1x512x512 .f32) (v8 v12 : Vec Ideal S1x1024x1 .f32) (q : Fin 1024) :
    k0_pay10 (F := Ideal) x0 x1 v8 v12 (ix3 (0 : Fin 1) q (0 : Fin 1))
      = Ideal.exp (v12 (ix3 (0 : Fin 1) q (0 : Fin 1)) - max (v8 (ix3 (0 : Fin 1) q (0 : Fin 1))) (bm x0 x1 q)) := by
  unfold k0_pay10
  show Ideal.exp (v12 _ - k0_pay9 (F := Ideal) x0 x1 v8 _) = _
  rw [pay9_apply]

/-- The weight of key `k` for row `q`: `exp (score - new maximum)`. -/
theorem pay11_apply (x0 : Vec Ideal S1x1024x512 .f32) (x1 : Vec Ideal S1x512x512 .f32) (v8 : Vec Ideal S1x1024x1 .f32) (q : Fin 1024) (k : Fin 512) :
    k0_pay11 (F := Ideal) x0 x1 v8 (ix3 (0 : Fin 1) q k)
      = Ideal.exp (sc x0 x1 q k - max (v8 (ix3 (0 : Fin 1) q (0 : Fin 1))) (bm x0 x1 q)) := by
  unfold k0_pay11
  show Ideal.exp (k0_pay8 (F := Ideal) x0 x1 _ - broadcastTo S1x1024x512 (k0_pay9 (F := Ideal) x0 x1 v8) broadcasts_S1x1024x1_S1x1024x512 _) = _
  rw [pay8_apply, bcast_col (by decide) _ broadcasts_S1x1024x1_S1x1024x512 q k, pay9_apply]

/-- The new weight sum of row `q`: the old one rescaled, plus the block's weights. -/
theorem pay12_apply (x0 : Vec Ideal S1x1024x512 .f32) (x1 : Vec Ideal S1x512x512 .f32) (v8 v12 v18 : Vec Ideal S1x1024x1 .f32) (q : Fin 1024) :
    k0_pay12 (F := Ideal) x0 x1 v8 v12 v18 (ix3 (0 : Fin 1) q (0 : Fin 1))
      = Ideal.exp (v12 (ix3 (0 : Fin 1) q (0 : Fin 1)) - max (v8 (ix3 (0 : Fin 1) q (0 : Fin 1))) (bm x0 x1 q)) * v18 (ix3 (0 : Fin 1) q (0 : Fin 1))
        + ∑ k : Fin 512, Ideal.exp (sc x0 x1 q k - max (v8 (ix3 (0 : Fin 1) q (0 : Fin 1))) (bm x0 x1 q)) := by
  unfold k0_pay12
  rw [shapeCast_self]
  show k0_pay10 (F := Ideal) x0 x1 v8 v12 (ix3 (0 : Fin 1) q (0 : Fin 1)) * v18 (ix3 (0 : Fin 1) q (0 : Fin 1))
      + shapeCast S1x1024x1 (multiReduction .add [2] S1x1024 (k0_pay11 (F := Ideal) x0 x1 v8) 0x00000000#32 reduces_S1x1024x512_S1x1024 (.inl rfl) rfl) shapeCasts_S1x1024_S1x1024x1 (ix3 (0 : Fin 1) q (0 : Fin 1)) = _
  rw [pay10_apply, cast_col _ shapeCasts_S1x1024_S1x1024x1 q]
  refine congrArg (fun z : EReal => Ideal.exp (v12 (ix3 (0 : Fin 1) q (0 : Fin 1)) - max (v8 (ix3 (0 : Fin 1) q (0 : Fin 1))) (bm x0 x1 q)) * v18 (ix3 (0 : Fin 1) q (0 : Fin 1)) + z) ?_
  refine (Ideal.multiReduction_add_single (k0_pay11 (F := Ideal) x0 x1 v8) 0x00000000#32 reduces_S1x1024x512_S1x1024 (.inl rfl) rfl (ix2 (0 : Fin 1) q)).trans ?_
  show ∑ k : Fin 512, k0_pay11 (F := Ideal) x0 x1 v8 (reduces_S1x1024x512_S1x1024.lift (ix2 (0 : Fin 1) q) k) = _
  refine Finset.sum_congr rfl fun k _ => ?_
  exact (congrArg (k0_pay11 (F := Ideal) x0 x1 v8) (lift_row q k)).trans (pay11_apply x0 x1 v8 q k)

/-- The block's weighted value rows for row `q`, feature `d`. -/
theorem pay13_apply (x0 : Vec Ideal S1x1024x512 .f32) (x1 : Vec Ideal S1x512x512 .f32) (v8 : Vec Ideal S1x1024x1 .f32) (q : Fin 1024) (d : Fin 512) :
    k0_pay13 (F := Ideal) x0 x1 v8 (ix3 (0 : Fin 1) q d)
      = ∑ k : Fin 512, Ideal.exp (sc x0 x1 q k - max (v8 (ix3 (0 : Fin 1) q (0 : Fin 1))) (bm x0 x1 q)) * x1 (ix3 (0 : Fin 1) k d) := by
  unfold k0_pay13
  refine (Cert.LibDotBatch.matmul_ix3 hPV none (truncf .bf16 (k0_pay11 (F := Ideal) x0 x1 v8) bitsLt_bf16_f32 : FVec Ideal S1x1024x512 .bf16) (k0_pay7 (F := Ideal) x1) (0 : Fin 1) q d).trans ?_
  refine Finset.sum_congr rfl fun k _ => ?_
  show k0_pay11 (F := Ideal) x0 x1 v8 _ * x1 _ = _
  rw [pay11_apply]

/-- The new weighted sum: the old one rescaled by the row's factor, plus the block's weighted value rows. -/
theorem pay1_apply (v14 : FVec Ideal S1x1024x1 .f32) (v27 : FVec Ideal S1x1024x512 .f32) (v28 : Vec Ideal S1x1024x512 .f32) (q : Fin 1024) (d : Fin 512) :
    k0_pay1 (F := Ideal) v14 v27 v28 (ix3 (0 : Fin 1) q d)
      = v14 (ix3 (0 : Fin 1) q (0 : Fin 1)) * v28 (ix3 (0 : Fin 1) q d) + v27 (ix3 (0 : Fin 1) q d) := by
  unfold k0_pay1
  rw [shapeCast_self]
  show broadcastTo S1x1024x512 v14 broadcasts_S1x1024x1_S1x1024x512 _ * v28 _ + v27 _ = _
  rw [bcast_col (by decide) v14 broadcasts_S1x1024x1_S1x1024x512 q d]

theorem pay2_eq (v11 : FVec Ideal S1x1024x1 .f32) : k0_pay2 (F := Ideal) v11 = v11 := by
  unfold k0_pay2
  exact shapeCast_self _ _

/-- The finished block: the weighted sum over the weight sum, row by row. -/
theorem pay3_apply (v41 : Vec Ideal S1x1024x512 .f32) (v42 : Vec Ideal S1x1024x1 .f32) (q : Fin 1024) (d : Fin 512) :
    k0_pay3 (F := Ideal) v41 v42 (ix3 (0 : Fin 1) q d) = Ideal.div (v41 (ix3 (0 : Fin 1) q d)) (v42 (ix3 (0 : Fin 1) q (0 : Fin 1))) := by
  unfold k0_pay3
  show Ideal.div (v41 _) (broadcastTo S1x1024x512 v42 broadcasts_S1x1024x1_S1x1024x512 _) = _
  rw [bcast_col (by decide) v42 broadcasts_S1x1024x1_S1x1024x512 q d]

/-- The reset values: `-∞` for the maximum, `0` for the two sums. -/
theorem pay4_apply (i : S1x1024x1.Idx) : k0_pay4 (F := Ideal) i = ⊥ := by
  unfold k0_pay4
  rw [shapeCast_self]
  exact negInf
theorem pay5_apply (i : S1x1024x1.Idx) : k0_pay5 (F := Ideal) i = 0 := by
  unfold k0_pay5
  rw [shapeCast_self]
  exact Ideal.ofBits_zero_f32
theorem pay6_apply (i : S1x1024x512.Idx) : k0_pay6 (F := Ideal) i = 0 := by
  unfold k0_pay6
  rw [shapeCast_self]
  exact Ideal.ofBits_zero_f32

end Cert.KernelIdeal.Pay
end
-- ==== Proof.Rows.lean ====
/-
  One decoder row's scores and one feature's value column, cut into the four key blocks of 512 the kernel visits:
  block `j`, position `k` is encoder row `512 j + k`. (Past the fourth block the functions are `0`; nothing reads them there.)
-/
import proofs.«134668_j29755533427577_2_alg».proof.Proof.Spec

noncomputable section

namespace Cert.Rows

open Idealize.ShloMosaic Idealize.ShloMosaic.ValueIdx Cert.Spec

/-- The score of decoder row `row` against the `k`-th encoder row of key block `j`. -/
def xrow (encR decR : SA.Idx → ℝ) (b : Fin 8) (row : Fin 2048) (j : ℕ) (k : Fin 512) : ℝ :=
  if h : 512 * j + k.val < 2048 then scoreR encR decR b row ⟨512 * j + k.val, h⟩ else 0

/-- Feature `d` of the `k`-th encoder row of key block `j`. -/
def yrow (encR : SA.Idx → ℝ) (b : Fin 8) (d : Fin 512) (j : ℕ) (k : Fin 512) : ℝ :=
  if h : 512 * j + k.val < 2048 then encR (ix3 b ⟨512 * j + k.val, h⟩ d) else 0

end Cert.Rows

end
-- ==== Proof.RowStep.lean ====
/-
  One key block's update of one query row, as the kernel's body computes it, is one step of the online evaluation.

  The body takes the new maximum `max m (max_k s_k)` over the block's scores `s_k`, rescales the old weight sum and the old
  weighted sum by `exp (m - m')`, and adds the block's weights `exp (s_k - m')`, respectively the weights times the value
  column. When the scores `s_k` and the value column are real numbers these are the step functions of the online
  evaluation at the old state `(m, l, a)`, term for term.
-/
import proofs.«134668_j29755533427577_2_alg».proof.Proof.Pay
import proofs.«134668_j29755533427577_2_alg».proof.Proof.Online
import proofs.«134668_j29755533427577_2_alg».proof.Proof.Rows

namespace Cert.RowStep

open Cert.KernelIdeal Cert.KernelIdeal.Gen Cert.KernelIdeal.Pay Cert.Online Idealize.ShloMosaic Idealize.ShloMosaic.ValueIdx

/-- The block's maximum of the scores is the block maximum of their real values. -/
theorem bm_eq (x0 : Vec Ideal S1x1024x512 .f32) (x1 : Vec Ideal S1x512x512 .f32) (q : Fin 1024) (xs : Fin 512 → ℝ)
    (hsc : ∀ k, sc x0 x1 q k = ((xs k : ℝ) : EReal)) : bm x0 x1 q = bmax xs := by
  unfold bm bmax
  exact congrArg (fun f : Fin 512 → EReal => Finset.univ.fold max ⊥ f) (funext hsc)

/-- The new running maximum. -/
theorem stepM_eq (x0 : Vec Ideal S1x1024x512 .f32) (x1 : Vec Ideal S1x512x512 .f32) (v8 : Vec Ideal S1x1024x1 .f32)
    (q : Fin 1024) (xs : Fin 512 → ℝ) (hsc : ∀ k, sc x0 x1 q k = ((xs k : ℝ) : EReal)) :
    k0_pay2 (F := Ideal) (k0_pay9 (F := Ideal) x0 x1 v8) (ix3 (0 : Fin 1) q (0 : Fin 1))
      = stepM (v8 (ix3 (0 : Fin 1) q (0 : Fin 1))) xs := by
  rw [pay2_eq, pay9_apply, bm_eq x0 x1 q xs hsc]
  rfl

/-- The new weight sum. -/
theorem stepL_eq (x0 : Vec Ideal S1x1024x512 .f32) (x1 : Vec Ideal S1x512x512 .f32) (v8 v18 : Vec Ideal S1x1024x1 .f32)
    (q : Fin 1024) (xs : Fin 512 → ℝ) (hsc : ∀ k, sc x0 x1 q k = ((xs k : ℝ) : EReal)) :
    k0_pay12 (F := Ideal) x0 x1 v8 v8 v18 (ix3 (0 : Fin 1) q (0 : Fin 1))
      = stepL (v8 (ix3 (0 : Fin 1) q (0 : Fin 1))) (v18 (ix3 (0 : Fin 1) q (0 : Fin 1))) xs := by
  rw [pay12_apply, bm_eq x0 x1 q xs hsc]
  simp only [hsc]
  rfl

/-- The new weighted sum, at feature `d`. -/
theorem stepA_eq (x0 : Vec Ideal S1x1024x512 .f32) (x1 : Vec Ideal S1x512x512 .f32) (v8 : Vec Ideal S1x1024x1 .f32)
    (v28 : Vec Ideal S1x1024x512 .f32) (q : Fin 1024) (xs : Fin 512 → ℝ)
    (hsc : ∀ k, sc x0 x1 q k = ((xs k : ℝ) : EReal)) (d : Fin 512) (ys : Fin 512 → ℝ)
    (hy : ∀ k, x1 (ix3 (0 : Fin 1) k d) = ((ys k : ℝ) : EReal)) :
    k0_pay1 (F := Ideal) (k0_pay10 (F := Ideal) x0 x1 v8 v8) (k0_pay13 (F := Ideal) x0 x1 v8) v28 (ix3 (0 : Fin 1) q d)
      = stepA (v8 (ix3 (0 : Fin 1) q (0 : Fin 1))) (v28 (ix3 (0 : Fin 1) q d)) xs ys := by
  rw [pay1_apply, pay10_apply, pay13_apply, bm_eq x0 x1 q xs hsc]
  simp only [hsc, hy]
  rfl

/-- The finished block: the weighted sum over the weight sum. -/
theorem finish_eq (v41 : Vec Ideal S1x1024x512 .f32) (v42 : Vec Ideal S1x1024x1 .f32) (q : Fin 1024) (d : Fin 512) :
    k0_pay3 (F := Ideal) v41 v42 (ix3 (0 : Fin 1) q d)
      = Ideal.div (v41 (ix3 (0 : Fin 1) q d)) (v42 (ix3 (0 : Fin 1) q (0 : Fin 1))) :=
  pay3_apply v41 v42 q d

end Cert.RowStep
-- ==== Proof.RowSum.lean ====
/-
  The sums over the four key blocks of 512 are the sums over the whole row of 2048 encoder rows, so the quotient of the
  blockwise weighted sum by the blockwise weight sum is the closed form of the specification.

  Block `i`, position `k` is encoder row `512 i + k`; for `i < 4` and `k < 512` that is below `2048`, and
  `(i, k) ↦ 512 i + k` runs through `0 … 2047` once.
-/
import proofs.«134668_j29755533427577_2_alg».proof.Proof.Rows
import proofs.«134668_j29755533427577_2_alg».proof.Proof.Online

namespace Cert.RowSum

open Idealize.ShloMosaic Idealize.ShloMosaic.ValueIdx Cert.Spec Cert.Rows Cert.Online

/-- A sum over four blocks of 512 whose terms are the values of `f` at `512 i + k` is the sum of `f` over `Fin 2048`. -/
theorem sum_four (F : ℕ → Fin 512 → ℝ) (f : Fin 2048 → ℝ)
    (hF : ∀ (i : ℕ) (k : Fin 512) (h : 512 * i + k.val < 2048), F i k = f ⟨512 * i + k.val, h⟩) :
    ∑ i ∈ Finset.range 4, ∑ k : Fin 512, F i k = ∑ e : Fin 2048, f e := by
  have hg := sum_blocks (fun n => if h : n < 2048 then f ⟨n, h⟩ else 0) 4 512
  have h1 : ∑ i ∈ Finset.range 4, ∑ k : Fin 512, F i k
      = ∑ i ∈ Finset.range 4, ∑ k : Fin 512,
          (fun n => if h : n < 2048 then f ⟨n, h⟩ else 0) (512 * i + k.val) := by
    refine Finset.sum_congr rfl (fun i hi => Finset.sum_congr rfl (fun k _ => ?_))
    have hi' : i < 4 := Finset.mem_range.mp hi
    have hk : 512 * i + k.val < 2048 := by
      have := k.isLt
      omega
    rw [hF i k hk]
    show f ⟨512 * i + k.val, hk⟩ = if h : 512 * i + k.val < 2048 then f ⟨512 * i + k.val, h⟩ else 0
    rw [dif_pos hk]
  rw [h1, hg]
  show ∑ e : Fin 2048, (if h : e.val < 2048 then f ⟨e.val, h⟩ else 0) = ∑ e : Fin 2048, f e
  exact Finset.sum_congr rfl (fun e _ => dif_pos e.isLt)

/-- The blockwise quotient is the closed form. -/
theorem gat_blocks (encR decR : SA.Idx → ℝ) (b : Fin 8) (row : Fin 2048) (d : Fin 512) :
    (∑ i ∈ Finset.range 4, ∑ k : Fin 512, Real.exp (xrow encR decR b row i k) * yrow encR b d i k)
        / (∑ i ∈ Finset.range 4, ∑ k : Fin 512, Real.exp (xrow encR decR b row i k))
      = GatR encR decR b row d := by
  have hN := sum_four (fun i k => Real.exp (xrow encR decR b row i k) * yrow encR b d i k)
    (fun e => Real.exp (scoreR encR decR b row e) * encR (ix3 b e d))
    (fun i k h => by simp only [xrow, yrow, dif_pos h])
  have hD := sum_four (fun i k => Real.exp (xrow encR decR b row i k))
    (fun e => Real.exp (scoreR encR decR b row e))
    (fun i k h => by simp only [xrow, dif_pos h])
  rw [GatR, ← hN, ← hD]

end Cert.RowSum
-- ==== Proof.Inv.lean ====
/-
  What the three carried buffers hold after every grid point, row by row, and what the output block holds after a row
  block's last key block.

  Grid point `t` works on batch `t / 8`, on the decoder rows `1024 · ((t / 4) % 2) + q` (`q < 1024`) and on key block
  `t % 4`. For every such row and every feature `d`, after the point the running maximum, the running weight sum and the
  running weighted sum are the online state of that row after `t % 4 + 1` key blocks: at a first key block the buffers
  are reset to (-∞, 0, 0) and updated once; at a later one the state the point before left (same batch, same rows) is
  updated once more. After the fourth key block the output block is the weighted sum over the weight sum, which is the
  softmax-weighted average of the encoder's feature column.
-/
import proofs.«134668_j29755533427577_2_alg».proof.Proof.Gen.KernelIdeal.Frame
import proofs.«134668_j29755533427577_2_alg».proof.Proof.Pieces
import proofs.«134668_j29755533427577_2_alg».proof.Proof.Pay
import proofs.«134668_j29755533427577_2_alg».proof.Proof.RowStep
import proofs.«134668_j29755533427577_2_alg».proof.Proof.RowSum
import proofs.«134668_j29755533427577_2_alg».proof.Proof.Blocks
import proofs.«134668_j29755533427577_2_alg».proof.Proof.Online
import proofs.«134668_j29755533427577_2_alg».proof.Proof.Rows
import proofs.«134668_j29755533427577_2_alg».proof.Proof.Spec

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pay Cert.Online Cert.Rows Cert.Spec

variable (m : (ℓ : Loc nD τ sig) → Buf (Elt Ideal) ℓ) (c : Dev nD) (encR decR : SA.Idx → ℝ)

/-- The batch grid point `t` works on. -/
def bt (t : Fin cfg0.N) : Fin 8 := ⟨t.val / 8, by have := t.isLt; have : cfg0.N = 64 := N_0; omega⟩

/-- The decoder row that row `q` of grid point `t`'s query block is. -/
def rowOf (t : Fin cfg0.N) (q : Fin 1024) : Fin 2048 :=
  ⟨1024 * ((t.val / 4) % 2) + q.val, by have := q.isLt; omega⟩

/-- Row `k` of the point's key block is encoder row `512 · (t % 4) + k`: its feature `d` is the value column's entry. -/
theorem key_real (harg0 : V m c main_arg0 = fun i => ((encR i : ℝ) : EReal)) (t : Fin cfg0.N) (k : Fin 512) (d : Fin 512) :
    iblk m c 1 t (ix3 (0 : Fin 1) k d) = ((yrow encR (bt t) d (t.val % 4) k : ℝ) : EReal) := by
  have hlt : 512 * (t.val % 4) + k.val < 2048 := by have := k.isLt; omega
  rw [Cert.KernelIdeal.Blocks.iblk1_apply m c t k d, harg0]
  unfold yrow
  rw [dif_pos hlt]
  rfl

/-- The score of the point's query row `q` against its key row `k` is the real score of the decoder row against the
    encoder row. -/
theorem score_real (harg0 : V m c main_arg0 = fun i => ((encR i : ℝ) : EReal)) (harg1 : V m c main_arg1 = fun i => ((decR i : ℝ) : EReal))
    (t : Fin cfg0.N) (q : Fin 1024) (k : Fin 512) :
    sc (iblk m c 0 t) (iblk m c 1 t) q k = ((xrow encR decR (bt t) (rowOf t q) (t.val % 4) k : ℝ) : EReal) := by
  have hlt : 512 * (t.val % 4) + k.val < 2048 := by have := k.isLt; omega
  unfold sc xrow
  rw [dif_pos hlt]
  unfold scoreR
  rw [Cert.Online.coe_sum]
  refine Finset.sum_congr rfl fun d _ => ?_
  rw [Cert.KernelIdeal.Blocks.iblk0_apply m c t q d, Cert.KernelIdeal.Blocks.iblk1_apply m c t k d, harg0, harg1, EReal.coe_mul, mul_comm]
  rfl

/-- One key block's update of a row's state, at any point: from the online state after `j = t % 4` blocks to the one after
    `j + 1`. -/
theorem step_at (harg0 : V m c main_arg0 = fun i => ((encR i : ℝ) : EReal)) (harg1 : V m c main_arg1 = fun i => ((decR i : ℝ) : EReal))
    (t : Fin cfg0.N) (xs0 xs1 : Vec Ideal S1x1024x1 .f32) (xs2 : Vec Ideal S1x1024x512 .f32) (q : Fin 1024) (d : Fin 512)
    (hprev : Inv (xrow encR decR (bt t) (rowOf t q)) (yrow encR (bt t) d) (t.val % 4)
      (xs0 (ix3 (0 : Fin 1) q (0 : Fin 1))) (xs1 (ix3 (0 : Fin 1) q (0 : Fin 1))) (xs2 (ix3 (0 : Fin 1) q d))) :
    Inv (xrow encR decR (bt t) (rowOf t q)) (yrow encR (bt t) d) (t.val % 4 + 1)
      (k0_pay2 (F := Ideal) (k0_pay9 (F := Ideal) (iblk m c 0 t) (iblk m c 1 t) xs0) (ix3 (0 : Fin 1) q (0 : Fin 1)))
      (k0_pay12 (F := Ideal) (iblk m c 0 t) (iblk m c 1 t) xs0 xs0 xs1 (ix3 (0 : Fin 1) q (0 : Fin 1)))
      (k0_pay1 (F := Ideal) (k0_pay10 (F := Ideal) (iblk m c 0 t) (iblk m c 1 t) xs0 xs0) (k0_pay13 (F := Ideal) (iblk m c 0 t) (iblk m c 1 t) xs0) xs2 (ix3 (0 : Fin 1) q d)) := by
  rw [Cert.RowStep.stepM_eq (iblk m c 0 t) (iblk m c 1 t) xs0 q _ (score_real m c encR decR harg0 harg1 t q),
    Cert.RowStep.stepL_eq (iblk m c 0 t) (iblk m c 1 t) xs0 xs1 q _ (score_real m c encR decR harg0 harg1 t q),
    Cert.RowStep.stepA_eq (iblk m c 0 t) (iblk m c 1 t) xs0 xs2 q _ (score_real m c encR decR harg0 harg1 t q) d _ (fun k => key_real m c encR harg0 t k d)]
  exact inv_step _ _ _ _ _ _ hprev

/-- At a row block's first key block: reset, then one update. -/
theorem inv_first_at (harg0 : V m c main_arg0 = fun i => ((encR i : ℝ) : EReal)) (harg1 : V m c main_arg1 = fun i => ((decR i : ℝ) : EReal))
    (t : Fin cfg0.N) (h0 : t.val % 4 = 0) (q : Fin 1024) (d : Fin 512) :
    Inv (xrow encR decR (bt t) (rowOf t q)) (yrow encR (bt t) d) (t.val % 4 + 1)
      ((outsAt0 m c t.val t.isLt).2.1 (ix3 (0 : Fin 1) q (0 : Fin 1)))
      ((outsAt0 m c t.val t.isLt).2.2.1 (ix3 (0 : Fin 1) q (0 : Fin 1)))
      ((outsAt0 m c t.val t.isLt).2.2.2 (ix3 (0 : Fin 1) q d)) := by
  have h1 : ¬t.val % 4 = 3 := by omega
  rw [outsAt0_A m c t h0 h1]
  dsimp only
  rw [Cert.KernelIdeal.Pieces.sout_A_0, Cert.KernelIdeal.Pieces.sout_A_1, Cert.KernelIdeal.Pieces.sout_A_2]
  rw [Cert.RowStep.stepM_eq (iblk m c 0 t) (iblk m c 1 t) (k0_pay4 (F := Ideal)) q _ (score_real m c encR decR harg0 harg1 t q),
    Cert.RowStep.stepL_eq (iblk m c 0 t) (iblk m c 1 t) (k0_pay4 (F := Ideal)) (k0_pay5 (F := Ideal)) q _ (score_real m c encR decR harg0 harg1 t q),
    Cert.RowStep.stepA_eq (iblk m c 0 t) (iblk m c 1 t) (k0_pay4 (F := Ideal)) (k0_pay6 (F := Ideal)) q _ (score_real m c encR decR harg0 harg1 t q) d _ (fun k => key_real m c encR harg0 t k d)]
  rw [pay4_apply, pay5_apply, pay6_apply, h0]
  exact inv_first _ _

/-- At a later key block: the state the point before left, updated once. -/
theorem inv_succ_at (harg0 : V m c main_arg0 = fun i => ((encR i : ℝ) : EReal)) (harg1 : V m c main_arg1 = fun i => ((decR i : ℝ) : EReal))
    (t : Fin cfg0.N) (h0 : ¬t.val % 4 = 0)
    (ih : ∀ (q : Fin 1024) (d : Fin 512), Inv (xrow encR decR (bt t) (rowOf t q)) (yrow encR (bt t) d) (t.val % 4)
      ((outsAt0 m c (t.val - 1) (Nat.lt_of_le_of_lt (Nat.sub_le _ _) t.isLt)).2.1 (ix3 (0 : Fin 1) q (0 : Fin 1)))
      ((outsAt0 m c (t.val - 1) (Nat.lt_of_le_of_lt (Nat.sub_le _ _) t.isLt)).2.2.1 (ix3 (0 : Fin 1) q (0 : Fin 1)))
      ((outsAt0 m c (t.val - 1) (Nat.lt_of_le_of_lt (Nat.sub_le _ _) t.isLt)).2.2.2 (ix3 (0 : Fin 1) q d)))
    (q : Fin 1024) (d : Fin 512) :
    Inv (xrow encR decR (bt t) (rowOf t q)) (yrow encR (bt t) d) (t.val % 4 + 1)
      ((outsAt0 m c t.val t.isLt).2.1 (ix3 (0 : Fin 1) q (0 : Fin 1)))
      ((outsAt0 m c t.val t.isLt).2.2.1 (ix3 (0 : Fin 1) q (0 : Fin 1)))
      ((outsAt0 m c t.val t.isLt).2.2.2 (ix3 (0 : Fin 1) q d)) := by
  by_cases h1 : t.val % 4 = 3
  · rw [outsAt0_C m c t h0 h1]
    dsimp only
    rw [Cert.KernelIdeal.Pieces.sout_C_0, Cert.KernelIdeal.Pieces.sout_C_1, Cert.KernelIdeal.Pieces.sout_C_2]
    exact step_at m c encR decR harg0 harg1 t _ _ _ q d (ih q d)
  · rw [outsAt0_B m c t h0 h1]
    dsimp only
    rw [Cert.KernelIdeal.Pieces.sout_B_0, Cert.KernelIdeal.Pieces.sout_B_1, Cert.KernelIdeal.Pieces.sout_B_2]
    exact step_at m c encR decR harg0 harg1 t _ _ _ q d (ih q d)

/-- The state after every point, by induction on the point. -/
theorem inv_all (harg0 : V m c main_arg0 = fun i => ((encR i : ℝ) : EReal)) (harg1 : V m c main_arg1 = fun i => ((decR i : ℝ) : EReal)) :
    ∀ (n : ℕ) (hn : n < cfg0.N) (q : Fin 1024) (d : Fin 512),
      Inv (xrow encR decR (bt ⟨n, hn⟩) (rowOf ⟨n, hn⟩ q)) (yrow encR (bt ⟨n, hn⟩) d) (n % 4 + 1)
        ((outsAt0 m c n hn).2.1 (ix3 (0 : Fin 1) q (0 : Fin 1)))
        ((outsAt0 m c n hn).2.2.1 (ix3 (0 : Fin 1) q (0 : Fin 1)))
        ((outsAt0 m c n hn).2.2.2 (ix3 (0 : Fin 1) q d))
  | 0, hn, q, d => inv_first_at m c encR decR harg0 harg1 ⟨0, hn⟩ rfl q d
  | n + 1, hn, q, d => by
    by_cases h0 : (n + 1) % 4 = 0
    · exact inv_first_at m c encR decR harg0 harg1 ⟨n + 1, hn⟩ h0 q d
    · refine inv_succ_at m c encR decR harg0 harg1 ⟨n + 1, hn⟩ h0 (fun q d => ?_) q d
      have ih := inv_all harg0 harg1 n (Nat.lt_of_succ_lt hn) q d
      have e1 : bt ⟨n, Nat.lt_of_succ_lt hn⟩ = bt ⟨n + 1, hn⟩ := Fin.ext (by show n / 8 = (n + 1) / 8; omega)
      have e2 : rowOf ⟨n, Nat.lt_of_succ_lt hn⟩ q = rowOf ⟨n + 1, hn⟩ q :=
        Fin.ext (by show 1024 * ((n / 4) % 2) + q.val = 1024 * (((n + 1) / 4) % 2) + q.val; omega)
      have e3 : n % 4 + 1 = (n + 1) % 4 := by omega
      rw [e1, e2, e3] at ih
      exact ih

/-- After a row block's last key block the output block's row `q`, feature `d` is the specification's entry. -/
theorem out_at (harg0 : V m c main_arg0 = fun i => ((encR i : ℝ) : EReal)) (harg1 : V m c main_arg1 = fun i => ((decR i : ℝ) : EReal))
    (t : Fin cfg0.N) (h3 : t.val % 4 = 3) (q : Fin 1024) (d : Fin 512) :
    (outsAt0 m c t.val t.isLt).1 (ix3 (0 : Fin 1) q d) = G encR decR (ix3 (bt t) (rowOf t q) d) := by
  have h0 : ¬t.val % 4 = 0 := by omega
  have hI := inv_all m c encR decR harg0 harg1 t.val t.isLt q d
  rw [outsAt0_C m c t h0 h3] at hI ⊢
  dsimp only at hI ⊢
  rw [Cert.KernelIdeal.Pieces.out_C_2, pay3_apply]
  rw [Cert.KernelIdeal.Pieces.sout_C_1, Cert.KernelIdeal.Pieces.sout_C_2] at hI
  rw [G_ix3, ← Cert.RowSum.gat_blocks encR decR (bt t) (rowOf t q) d]
  have e4 : t.val % 4 + 1 = 4 := by omega
  rw [e4] at hI
  exact inv_final _ _ 4 (by norm_num) _ _ _ hI

end Cert.KernelIdeal.Inv

end
-- ==== Proof.lean ====
/-
  Cross-attention of decoder rows against encoder rows, unscaled, the encoder array serving as keys and as values:
  `out[b, t, d] = ∑_e softmax_e(enc[b, e, :] · dec[b, t, :]) · enc[b, e, d]`.

  The kernel computes it block by block with a running maximum (the online softmax): per batch and per block of 1024
  decoder rows it visits the four blocks of 512 encoder rows in order, keeping for every row a maximum `m`, a weight sum
  `l` and a weighted sum `a`; a new block rescales the old sums by `exp (m - m')` and adds the block's weights
  `exp (s - m')`; after the fourth block it writes `a / l`. The reference computes the scores of a row against all 2048
  encoder rows at once, subtracts the row maximum, exponentiates, divides by the sum and averages.

  On the extended reals, for inputs that are real numbers (the precondition), both are the closed form
  `(∑_e exp s_e · enc[b, e, d]) / (∑_e exp s_e)`: the factor `exp (-M)` of whichever real maximum `M` was subtracted cancels
  between numerator and denominator, and the weight sum is positive, so the division is the real one. The real-number
  hypothesis is what makes every score a real (so that `exp` never sees an infinity except the initial `-∞` maximum, where
  `exp (-∞ - m') = 0` annihilates the reset sums) and what lets the rescaling distribute over the sums.

  The modules: `Spec` (the closed form), `Online` (the online recurrence and the direct evaluation both reach it),
  `Rows` / `RowSum` (a row's scores cut into the four key blocks), `Pay` (the body's arithmetic entry by entry),
  `RowStep` (one block's update of a row is the recurrence's step), `Pieces` (what each control case of the body leaves in
  the carried buffers), `Inv` (the buffers after every grid point, by induction on the point), `Blocks` (from output blocks
  to the output array), `Ref` / `RefG` (the reference's result entry by entry), `Finite` (the precondition gives real
  entries). The ideal pass rewrote nothing, so the idealization claim is trivial; the three frames are the generated
  frame runs.
-/
import proofs.«134668_j29755533427577_2_alg».proof.Defs
import proofs.«134668_j29755533427577_2_alg».proof.Proof.Gen.Kernel
import proofs.«134668_j29755533427577_2_alg».proof.Proof.Gen.Kernel.Skeleton
import proofs.«134668_j29755533427577_2_alg».proof.Proof.Gen.Kernel.Launch
import proofs.«134668_j29755533427577_2_alg».proof.Proof.Gen.Kernel.Points
import proofs.«134668_j29755533427577_2_alg».proof.Proof.Gen.Kernel.Frame
import proofs.«134668_j29755533427577_2_alg».proof.Proof.Gen.KernelIdeal
import proofs.«134668_j29755533427577_2_alg».proof.Proof.Gen.KernelIdeal.Skeleton
import proofs.«134668_j29755533427577_2_alg».proof.Proof.Gen.KernelIdeal.Launch
import proofs.«134668_j29755533427577_2_alg».proof.Proof.Gen.KernelIdeal.Points
import proofs.«134668_j29755533427577_2_alg».proof.Proof.Gen.KernelIdeal.Frame
import proofs.«134668_j29755533427577_2_alg».proof.Proof.Gen.ReferenceIdeal
import proofs.«134668_j29755533427577_2_alg».proof.Proof.Gen.Pre_finite_inputs
import proofs.«134668_j29755533427577_2_alg».proof.Proof.Gen.KernelIdeal.Value
import proofs.«134668_j29755533427577_2_alg».proof.Proof.Gen.ReferenceIdeal.Run
import proofs.«134668_j29755533427577_2_alg».proof.Proof.Gen.ReferenceIdeal.Read
import proofs.«134668_j29755533427577_2_alg».proof.Proof.Spec
import proofs.«134668_j29755533427577_2_alg».proof.Proof.Finite
import proofs.«134668_j29755533427577_2_alg».proof.Proof.Ref
import proofs.«134668_j29755533427577_2_alg».proof.Proof.RefG
import proofs.«134668_j29755533427577_2_alg».proof.Proof.Blocks
import proofs.«134668_j29755533427577_2_alg».proof.Proof.Inv
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition both argument arrays hold real numbers on every device; the kernel's output array then ends
    at the closed form (the carried buffers' invariant and the output blocks' cover), and so does the reference's result
    (its operations read entry by entry, then the direct evaluation), of arguments that agree. -/
theorem algebraic : Cert.algebraic_KernelIdeal_ReferenceIdeal := by
  intro m ρ m' ρ' hpre hagree
  have hreal : ∀ c : Dev Cert.KernelIdeal.nD, ∃ encR decR : Cert.Spec.SA.Idx → ℝ,
      m ((c.tc : Thread Cert.KernelIdeal.nD Cert.KernelIdeal.τ).loc Cert.KernelIdeal.main_arg0) = (fun i => ((encR i : ℝ) : EReal))
      ∧ m ((c.tc : Thread Cert.KernelIdeal.nD Cert.KernelIdeal.τ).loc Cert.KernelIdeal.main_arg1) = (fun i => ((decR i : ℝ) : EReal)) := fun c => by
    obtain ⟨⟨r0, h0⟩, ⟨r1, h1⟩⟩ := Cert.Finite.real_of_pre _ _ (hpre c)
    exact ⟨r0, r1, h0, h1⟩
  choose encR decR h0 h1 using hreal
  refine ⟨fun c => Cert.Spec.G (encR c) (decR c), ?_, ?_⟩
  · exact Cert.KernelIdeal.Blocks.run_G m ρ (fun c => Cert.Spec.G (encR c) (decR c))
      (fun c t h3 q d => Cert.KernelIdeal.Inv.out_at m c (encR c) (decR c) (h0 c) (h1 c) t h3 q d)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, (hagree c).1, (hagree c).2, h0 c, h1 c, Cert.RefSide.ref_eq]
    exact Cert.RefG.refAt_eq_G (encR c) (decR c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
